-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v16)) (v1 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_v17) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_v79) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x1x512x512 : Shape := ⟨4, ![128, 1, 512, 512]⟩
abbrev S128x64 : Shape := ⟨2, ![128, 64]⟩
abbrev S8 : Shape := ⟨1, ![8]⟩
abbrev S72x128 : Shape := ⟨2, ![72, 128]⟩
abbrev S128 : Shape := ⟨1, ![128]⟩
abbrev S128x8 : Shape := ⟨2, ![128, 8]⟩
abbrev S_ : Shape := ⟨0, ![]⟩

class Facts : Prop where
  bcast_S_S128x1x512x512 : S_.BroadcastsInDim S128x1x512x512 (![] : Fin 0 → Fin S128x1x512x512.rank)
  reducesTo_S128x1x512x512_S_d0_1_2_3 : S128x1x512x512.ReducesTo [0, 1, 2, 3] S_
  h_S_ : 0 < S_.numel
  bcast_S_S128x64 : S_.BroadcastsInDim S128x64 (![] : Fin 0 → Fin S128x64.rank)
  reducesTo_S128x64_S_d0_1 : S128x64.ReducesTo [0, 1] S_
  bcast_S_S8 : S_.BroadcastsInDim S8 (![] : Fin 0 → Fin S8.rank)
  reducesTo_S8_S_d0 : S8.ReducesTo [0] S_
  bcast_S_S72x128 : S_.BroadcastsInDim S72x128 (![] : Fin 0 → Fin S72x128.rank)
  reducesTo_S72x128_S_d0_1 : S72x128.ReducesTo [0, 1] S_
  bcast_S_S128 : S_.BroadcastsInDim S128 (![] : Fin 0 → Fin S128.rank)
  reducesTo_S128_S_d0 : S128.ReducesTo [0] S_
  bcast_S_S128x8 : S_.BroadcastsInDim S128x8 (![] : Fin 0 → Fin S128x8.rank)
  reducesTo_S128x8_S_d0_1 : S128x8.ReducesTo [0, 1] S_

variable [Facts]

def fn_part1 {F : FTy → Type} [FloatOps F] (main_arg4 : FVec F S128 .f32) (main_arg5 : FVec F S128x8 .f32) (main_arg6 : FVec F S8 .f32) (main_v13 : IVec S_ 1) (main_v16 : IVec S72x128 1) : IVec S_ 1 :=
  let main_c_5 : IVec S_ 1 := constantI S_ 1 1#1
  let main_v17 : IVec S_ 1 := (fun x v => Host.reduce IntOp.andi x v reducesTo_S72x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x8 .f32 := Host.absf main_arg5
  let main_cst_8 : FVec F S_ .f32 := constant S_ .f32 0x7F800000#32
  let main_v25 : FVec F S128x8 .f32 := broadcastInDim S128x8 ![] bcast_S_S128x8 main_cst_8
  let main_v26 : IVec S128x8 1 := cmpf .olt main_v24 main_v25
  let main_c_9 : IVec S_ 1 := constantI S_ 1 1#1
  let main_v27 : IVec S_ 1 := (fun x v => Host.reduce IntOp.andi x v reducesTo_S128x8_S_d0_1 h_S_) main_v26 main_c_9
  let main_v28 : IVec S_ 1 := andi main_v23 main_v27
  let main_v29 : FVec F S8 .f32 := Host.absf main_arg6
  let main_cst_10 : FVec F S_ .f32 := constant S_ .f32 0x7F800000#32
  let main_v30 : FVec F S8 .f32 := broadcastInDim S8 ![] bcast_S_S8 main_cst_10
  let main_v31 : IVec S8 1 := cmpf .olt main_v29 main_v30
  let main_c_11 : IVec S_ 1 := constantI S_ 1 1#1
  let main_v32 : IVec S_ 1 := (fun x v => Host.reduce IntOp.andi x v reducesTo_S8_S_d0 h_S_) main_v31 main_c_11
  let main_v33 : IVec S_ 1 := andi main_v28 main_v32
  main_v33

def fn {F : FTy → Type} [FloatOps F] (main_arg0 : FVec F S128x1x512x512 .f32) (main_arg1 : FVec F S128x64 .f32) (main_arg2 : FVec F S8 .f32) (main_arg3 : FVec F S72x128 .f32) (main_arg4 : FVec F S128 .f32) (main_arg5 : FVec F S128x8 .f32) (main_arg6 : FVec F S8 .f32) : IVec S_ 1 :=
  let main_v0 : FVec F S128x1x512x512 .f32 := Host.absf main_arg0
  let main_cst : FVec F S_ .f32 := constant S_ .f32 0x7F800000#32
  let main_v1 : FVec F S128x1x512x512 .f32 := broadcastInDim S128x1x512x512 ![] bcast_S_S128x1x512x512 main_cst
  let main_v2 : IVec S128x1x512x512 1 := cmpf .olt main_v0 main_v1
  let main_c : IVec S_ 1 := constantI S_ 1 1#1
  let main_v3 : IVec S_ 1 := (fun x v => Host.reduce IntOp.andi x v reducesTo_S128x1x512x512_S_d0_1_2_3 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S8 .f32 := Host.absf main_arg2
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  let main_v14 : FVec F S72x128 .f32 := Host.absf main_arg3
  let main_cst_4 : FVec F S_ .f32 := constant S_ .f32 0x7F800000#32
  let main_v15 : FVec F S72x128 .f32 := broadcastInDim S72x128 ![] bcast_S_S72x128 main_cst_4
  let main_v16 : IVec S72x128 1 := cmpf .olt main_v14 main_v15
  fn_part1 (F := F) main_arg4 main_arg5 main_arg6 main_v13 main_v16
-- ==== Kernel.lean ====
abbrev S128x1x512x512 : Shape := ⟨4, ![128, 1, 512, 512]⟩
abbrev S128x64 : Shape := ⟨2, ![128, 64]⟩
abbrev S8 : Shape := ⟨1, ![8]⟩
abbrev S72x128 : Shape := ⟨2, ![72, 128]⟩
abbrev S128 : Shape := ⟨1, ![128]⟩
abbrev S128x8 : Shape := ⟨2, ![128, 8]⟩
abbrev S128x72 : Shape := ⟨2, ![128, 72]⟩
abbrev S128x128 : Shape := ⟨2, ![128, 128]⟩
abbrev S1x128 : Shape := ⟨2, ![1, 128]⟩
abbrev S1x8 : Shape := ⟨2, ![1, 8]⟩
abbrev S_ : Shape := ⟨0, ![]⟩
abbrev S128x1 : Shape := ⟨2, ![128, 1]⟩
abbrev S128x9 : Shape := ⟨2, ![128, 9]⟩
abbrev S128x3x3 : Shape := ⟨3, ![128, 3, 3]⟩
abbrev S128x512x512 : Shape := ⟨3, ![128, 512, 512]⟩
abbrev S4x512x512 : Shape := ⟨3, ![4, 512, 512]⟩
abbrev S4x3x3 : Shape := ⟨3, ![4, 3, 3]⟩
abbrev S4x2x512 : Shape := ⟨3, ![4, 2, 512]⟩
abbrev S4x514x512 : Shape := ⟨3, ![4, 514, 512]⟩
abbrev S4x514x2 : Shape := ⟨3, ![4, 514, 2]⟩
abbrev S4x514x514 : Shape := ⟨3, ![4, 514, 514]⟩
abbrev S4x1x1 : Shape := ⟨3, ![4, 1, 1]⟩
abbrev S4 : Shape := ⟨1, ![4]⟩

abbrev nBuf : Space → Nat
  | .hbm => 27
  | .vmem => 6
  | .smem => 0
  | _ => 0

abbrev bufTy : (tb : Table) → Fin (tcTables nBuf tb) → BufTy
  | .hbm, ⟨0, _⟩ => ⟨S128x1x512x512, .f32⟩
  | .hbm, ⟨1, _⟩ => ⟨S128x64, .f32⟩
  | .hbm, ⟨2, _⟩ => ⟨S8, .f32⟩
  | .hbm, ⟨3, _⟩ => ⟨S72x128, .f32⟩
  | .hbm, ⟨4, _⟩ => ⟨S128, .f32⟩
  | .hbm, ⟨5, _⟩ => ⟨S128x8, .f32⟩
  | .hbm, ⟨6, _⟩ => ⟨S8, .f32⟩
  | .hbm, ⟨7, _⟩ => ⟨S128x8, .f32⟩
  | .hbm, ⟨8, _⟩ => ⟨S128x72, .f32⟩
  | .hbm, ⟨9, _⟩ => ⟨S128x128, .f32⟩
  | .hbm, ⟨10, _⟩ => ⟨S1x128, .f32⟩
  | .hbm, ⟨11, _⟩ => ⟨S128x128, .f32⟩
  | .hbm, ⟨12, _⟩ => ⟨S128x128, .f32⟩
  | .hbm, ⟨13, _⟩ => ⟨S128x128, .f32⟩
  | .hbm, ⟨14, _⟩ => ⟨S128x8, .f32⟩
  | .hbm, ⟨15, _⟩ => ⟨S1x8, .f32⟩
  | .hbm, ⟨16, _⟩ => ⟨S128x8, .f32⟩
  | .hbm, ⟨17, _⟩ => ⟨S128x8, .f32⟩
  | .hbm, ⟨18, _⟩ => ⟨S_, .f32⟩
  | .hbm, ⟨19, _⟩ => ⟨S128x1, .f32⟩
  | .hbm, ⟨20, _⟩ => ⟨S128x9, .f32⟩
  | .hbm, ⟨21, _⟩ => ⟨S128x3x3, .f32⟩
  | .hbm, ⟨22, _⟩ => ⟨S128x512x512, .f32⟩
  | .hbm, ⟨23, _⟩ => ⟨S128x512x512, .f32⟩
  | .hbm, ⟨24, _⟩ => ⟨S128x1x512x512, .f32⟩
  | .hbm, ⟨25, _⟩ => ⟨S_, .f32⟩
  | .hbm, ⟨26, _⟩ => ⟨S128, .f32⟩
  | .local _ .vmem, ⟨0, _⟩ => ⟨S4x512x512, .f32⟩
  | .local _ .vmem, ⟨1, _⟩ => ⟨S4x512x512, .f32⟩
  | .local _ .vmem, ⟨2, _⟩ => ⟨S4x3x3, .f32⟩
  | .local _ .vmem, ⟨3, _⟩ => ⟨S4x3x3, .f32⟩
  | .local _ .vmem, ⟨4, _⟩ => ⟨S4x512x512, .f32⟩
  | .local _ .vmem, ⟨5, _⟩ => ⟨S4x512x512, .f32⟩
  | _, _ => ⟨S128x1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x3x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S8_S128x8_1 : S8.BroadcastsInDim S128x8 (![1] : Fin 1 → Fin S128x8.rank)
  concatenates_S128x8_S128x64_S128x72_d1 : Shape.Concatenates [S128x8, S128x64] S128x72 1
  bcast_S128_S1x128_1 : S128.BroadcastsInDim S1x128 (![1] : Fin 1 → Fin S1x128.rank)
  bcast_S1x128_S128x128_0_1 : S1x128.BroadcastsInDim S128x128 (![0, 1] : Fin 2 → Fin S128x128.rank)
  bcast_S8_S1x8_1 : S8.BroadcastsInDim S1x8 (![1] : Fin 1 → Fin S1x8.rank)
  bcast_S1x8_S128x8_0_1 : S1x8.BroadcastsInDim S128x8 (![0, 1] : Fin 2 → Fin S128x8.rank)
  bcast_S_S128x1 : S_.BroadcastsInDim S128x1 (![] : Fin 0 → Fin S128x1.rank)
  concatenates_S128x8_S128x1_S128x9_d1 : Shape.Concatenates [S128x8, S128x1] S128x9 1
  shapeCasts_S128x9_S128x3x3 : S128x9.ShapeCasts S128x3x3
  shapeCasts_S128x1x512x512_S128x512x512 : S128x1x512x512.ShapeCasts S128x512x512
  inb_S4x512x512_S4x512x512_0_0_0 : ∀ a, (![0, 0, 0] : Fin 3 → Nat) a + S4x512x512.size a ≤ S4x512x512.size a
  h_S4x512x512 : 0 < S4x512x512.numel
  shapeCasts_S4x512x512_S4x512x512 : S4x512x512.ShapeCasts S4x512x512
  inb_S4x3x3_S4x3x3_0_0_0 : ∀ a, (![0, 0, 0] : Fin 3 → Nat) a + S4x3x3.size a ≤ S4x3x3.size a
  h_S4x3x3 : 0 < S4x3x3.numel
  shapeCasts_S4x3x3_S4x3x3 : S4x3x3.ShapeCasts S4x3x3
  concatenates_S4x2x512_S4x512x512_S4x514x512_d1 : Shape.Concatenates [S4x2x512, S4x512x512] S4x514x512 1
  concatenates_S4x514x2_S4x514x512_S4x514x514_d2 : Shape.Concatenates [S4x514x2, S4x514x512] S4x514x514 2
  slices_S4x3x3_o0_0_0_S4x1x1 : S4x3x3.Slices ![0, 0, 0] S4x1x1
  shapeCasts_S4x1x1_S4 : S4x1x1.ShapeCasts S4
  shapeCasts_S4_S4x1x1 : S4.ShapeCasts S4x1x1
  slices_S4x514x514_o0_0_0_S4x512x512 : S4x514x514.Slices ![0, 0, 0] S4x512x512
  broadcasts_S4x1x1_S4x512x512 : S4x1x1.Broadcasts S4x512x512
  slices_S4x3x3_o0_0_1_S4x1x1 : S4x3x3.Slices ![0, 0, 1] S4x1x1
  slices_S4x514x514_o0_0_1_S4x512x512 : S4x514x514.Slices ![0, 0, 1] S4x512x512
  slices_S4x3x3_o0_0_2_S4x1x1 : S4x3x3.Slices ![0, 0, 2] S4x1x1
  slices_S4x514x514_o0_0_2_S4x512x512 : S4x514x514.Slices ![0, 0, 2] S4x512x512
  slices_S4x3x3_o0_1_0_S4x1x1 : S4x3x3.Slices ![0, 1, 0] S4x1x1
  slices_S4x514x514_o0_1_0_S4x512x512 : S4x514x514.Slices ![0, 1, 0] S4x512x512
  slices_S4x3x3_o0_1_1_S4x1x1 : S4x3x3.Slices ![0, 1, 1] S4x1x1
  slices_S4x514x514_o0_1_1_S4x512x512 : S4x514x514.Slices ![0, 1, 1] S4x512x512
  slices_S4x3x3_o0_1_2_S4x1x1 : S4x3x3.Slices ![0, 1, 2] S4x1x1
  slices_S4x514x514_o0_1_2_S4x512x512 : S4x514x514.Slices ![0, 1, 2] S4x512x512
  slices_S4x3x3_o0_2_0_S4x1x1 : S4x3x3.Slices ![0, 2, 0] S4x1x1
  slices_S4x514x514_o0_2_0_S4x512x512 : S4x514x514.Slices ![0, 2, 0] S4x512x512
  slices_S4x3x3_o0_2_1_S4x1x1 : S4x3x3.Slices ![0, 2, 1] S4x1x1
  slices_S4x514x514_o0_2_1_S4x512x512 : S4x514x514.Slices ![0, 2, 1] S4x512x512
  slices_S4x3x3_o0_2_2_S4x1x1 : S4x3x3.Slices ![0, 2, 2] S4x1x1
  slices_S4x514x514_o0_2_2_S4x512x512 : S4x514x514.Slices ![0, 2, 2] S4x512x512
  bcast_S128x512x512_S128x1x512x512_0_2_3 : S128x512x512.BroadcastsInDim S128x1x512x512 (![0, 2, 3] : Fin 3 → Fin S128x1x512x512.rank)
  bcast_S_S128 : S_.BroadcastsInDim S128 (![] : Fin 0 → Fin S128.rank)
  dot_S128x72_S72x128_S128x128_1_0_0_1_n_n_wf : DotDims.WF S128x72 S72x128 S128x128 [1] [0] [0] [1] [] []
  dot_S128x128_S128x8_S128x8_1_0_0_1_n_n_wf : DotDims.WF S128x128 S128x8 S128x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x512.size a ≤ S128x512x512.size a
  hwx0_0 : ∀ i : grid0.Coords, EltTy.bits .f32 = 32 ∨ (Rect.block (s := S128x512x512) S4x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x3x3.size a ≤ S128x3x3.size a
  hwx0_1 : ∀ i : grid0.Coords, EltTy.bits .f32 = 32 ∨ (Rect.block (s := S128x3x3) S4x3x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x512x512.size a ≤ S128x512x512.size a
  hwx0_2 : ∀ i : grid0.Coords, EltTy.bits .f32 = 32 ∨ (Rect.block (s := S128x512x512) S4x512x512.size (cc0_transform_2 i) (hinb0_2 i)).WholeWords (EltTy.packing .f32)

variable [Facts₀]

def dot_S128x72_S72x128_S128x128_1_0_0_1_n_n : DotDims S128x72 S72x128 S128x128 where
  lhsContracting := [1]
  rhsContracting := [0]
  lhsNonContracting := [0]
  rhsNonContracting := [1]
  lhsBatch := []
  rhsBatch := []
  wf := dot_S128x72_S72x128_S128x128_1_0_0_1_n_n_wf
def dot_S128x128_S128x8_S128x8_1_0_0_1_n_n : DotDims S128x128 S128x8 S128x8 where
  lhsContracting := [1]
  rhsContracting := [0]
  lhsNonContracting := [0]
  rhsNonContracting := [1]
  lhsBatch := []
  rhsBatch := []
  wf := dot_S128x128_S128x8_S128x8_1_0_0_1_n_n_wf

abbrev win0_0 : Pipeline.Window sig grid0 :=
  Pipeline.Window.ofSpec (Memref.whole main_v14) S4x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S4x3x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S4x512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S128x1x512x512 : Shape := ⟨4, ![128, 1, 512, 512]⟩
abbrev S128x64 : Shape := ⟨2, ![128, 64]⟩
abbrev S8 : Shape := ⟨1, ![8]⟩
abbrev S72x128 : Shape := ⟨2, ![72, 128]⟩
abbrev S128 : Shape := ⟨1, ![128]⟩
abbrev S128x8 : Shape := ⟨2, ![128, 8]⟩
abbrev S128x72 : Shape := ⟨2, ![128, 72]⟩
abbrev S128x128 : Shape := ⟨2, ![128, 128]⟩
abbrev S1x128 : Shape := ⟨2, ![1, 128]⟩
abbrev S1x8 : Shape := ⟨2, ![1, 8]⟩
abbrev S_ : Shape := ⟨0, ![]⟩
abbrev S128x1 : Shape := ⟨2, ![128, 1]⟩
abbrev S128x9 : Shape := ⟨2, ![128, 9]⟩
abbrev S128x3x3 : Shape := ⟨3, ![128, 3, 3]⟩
abbrev S128x1x514x514 : Shape := ⟨4, ![128, 1, 514, 514]⟩
abbrev S128x1x1 : Shape := ⟨3, ![128, 1, 1]⟩
abbrev S128x1x1x1 : Shape := ⟨4, ![128, 1, 1, 1]⟩

abbrev nBuf : Space → Nat
  | .hbm => 92
  | .vmem => 0
  | .smem => 0
  | _ => 0

abbrev bufTy : (tb : Table) → Fin (tcTables nBuf tb) → BufTy
  | .hbm, ⟨0, _⟩ => ⟨S128x1x512x512, .f32⟩
  | .hbm, ⟨1, _⟩ => ⟨S128x64, .f32⟩
  | .hbm, ⟨2, _⟩ => ⟨S8, .f32⟩
  | .hbm, ⟨3, _⟩ => ⟨S72x128, .f32⟩
  | .hbm, ⟨4, _⟩ => ⟨S128, .f32⟩
  | .hbm, ⟨5, _⟩ => ⟨S128x8, .f32⟩
  | .hbm, ⟨6, _⟩ => ⟨S8, .f32⟩
  | .hbm, ⟨7, _⟩ => ⟨S128x8, .f32⟩
  | .hbm, ⟨8, _⟩ => ⟨S128x72, .f32⟩
  | .hbm, ⟨9, _⟩ => ⟨S128x128, .f32⟩
  | .hbm, ⟨10, _⟩ => ⟨S1x128, .f32⟩
  | .hbm, ⟨11, _⟩ => ⟨S128x128, .f32⟩
  | .hbm, ⟨12, _⟩ => ⟨S128x128, .f32⟩
  | .hbm, ⟨13, _⟩ => ⟨S128x128, .f32⟩
  | .hbm, ⟨14, _⟩ => ⟨S128x8, .f32⟩
  | .hbm, ⟨15, _⟩ => ⟨S1x8, .f32⟩
  | .hbm, ⟨16, _⟩ => ⟨S128x8, .f32⟩
  | .hbm, ⟨17, _⟩ => ⟨S128x8, .f32⟩
  | .hbm, ⟨18, _⟩ => ⟨S_, .f32⟩
  | .hbm, ⟨19, _⟩ => ⟨S128x1, .f32⟩
  | .hbm, ⟨20, _⟩ => ⟨S128x9, .f32⟩
  | .hbm, ⟨21, _⟩ => ⟨S128x3x3, .f32⟩
  | .hbm, ⟨22, _⟩ => ⟨S_, .i32⟩
  | .hbm, ⟨23, _⟩ => ⟨S_, .f32⟩
  | .hbm, ⟨24, _⟩ => ⟨S128x1x514x514, .f32⟩
  | .hbm, ⟨25, _⟩ => ⟨S_, .f32⟩
  | .hbm, ⟨26, _⟩ => ⟨S128x1x512x512, .f32⟩
  | .hbm, ⟨27, _⟩ => ⟨S128x1x1, .f32⟩
  | .hbm, ⟨28, _⟩ => ⟨S128, .f32⟩
  | .hbm, ⟨29, _⟩ => ⟨S128x1x1x1, .f32⟩
  | .hbm, ⟨30, _⟩ => ⟨S128x1x512x512, .f32⟩
  | .hbm, ⟨31, _⟩ => ⟨S128x1x512x512, .f32⟩
  | .hbm, ⟨32, _⟩ => ⟨S128x1x512x512, .f32⟩
  | .hbm, ⟨33, _⟩ => ⟨S128x1x512x512, .f32⟩
  | .hbm, ⟨34, _⟩ => ⟨S128x1x1, .f32⟩
  | .hbm, ⟨35, _⟩ => ⟨S128, .f32⟩
  | .hbm, ⟨36, _⟩ => ⟨S128x1x1x1, .f32⟩
  | .hbm, ⟨37, _⟩ => ⟨S128x1x512x512, .f32⟩
  | .hbm, ⟨38, _⟩ => ⟨S128x1x512x512, .f32⟩
  | .hbm, ⟨39, _⟩ => ⟨S128x1x512x512, .f32⟩
  | .hbm, ⟨40, _⟩ => ⟨S128x1x512x512, .f32⟩
  | .hbm, ⟨41, _⟩ => ⟨S128x1x1, .f32⟩
  | .hbm, ⟨42, _⟩ => ⟨S128, .f32⟩
  | .hbm, ⟨43, _⟩ => ⟨S128x1x1x1, .f32⟩
  | .hbm, ⟨44, _⟩ => ⟨S128x1x512x512, .f32⟩
  | .hbm, ⟨45, _⟩ => ⟨S128x1x512x512, .f32⟩
  | .hbm, ⟨46, _⟩ => ⟨S128x1x512x512, .f32⟩
  | .hbm, ⟨47, _⟩ => ⟨S128x1x512x512, .f32⟩
  | .hbm, ⟨48, _⟩ => ⟨S128x1x1, .f32⟩
  | .hbm, ⟨49, _⟩ => ⟨S128, .f32⟩
  | .hbm, ⟨50, _⟩ => ⟨S128x1x1x1, .f32⟩
  | .hbm, ⟨51, _⟩ => ⟨S128x1x512x512, .f32⟩
  | .hbm, ⟨52, _⟩ => ⟨S128x1x512x512, .f32⟩
  | .hbm, ⟨53, _⟩ => ⟨S128x1x512x512, .f32⟩
  | .hbm, ⟨54, _⟩ => ⟨S128x1x512x512, .f32⟩
  | .hbm, ⟨55, _⟩ => ⟨S128x1x1, .f32⟩
  | .hbm, ⟨56, _⟩ => ⟨S128, .f32⟩
  | .hbm, ⟨57, _⟩ => ⟨S128x1x1x1, .f32⟩
  | .hbm, ⟨58, _⟩ => ⟨S128x1x512x512, .f32⟩
  | .hbm, ⟨59, _⟩ => ⟨S128x1x512x512, .f32⟩
  | .hbm, ⟨60, _⟩ => ⟨S128x1x512x512, .f32⟩
  | .hbm, ⟨61, _⟩ => ⟨S128x1x512x512, .f32⟩
  | .hbm, ⟨62, _⟩ => ⟨S128x1x1, .f32⟩
  | .hbm, ⟨63, _⟩ => ⟨S128, .f32⟩
  | .hbm, ⟨64, _⟩ => ⟨S128x1x1x1, .f32⟩
  | .hbm, ⟨65, _⟩ => ⟨S128x1x512x512, .f32⟩
  | .hbm, ⟨66, _⟩ => ⟨S128x1x512x512, .f32⟩
  | .hbm, ⟨67, _⟩ => ⟨S128x1x512x512, .f32⟩
  | .hbm, ⟨68, _⟩ => ⟨S128x1x512x512, .f32⟩
  | .hbm, ⟨69, _⟩ => ⟨S128x1x1, .f32⟩
  | .hbm, ⟨70, _⟩ => ⟨S128, .f32⟩
  | .hbm, ⟨71, _⟩ => ⟨S128x1x1x1, .f32⟩
  | .hbm, ⟨72, _⟩ => ⟨S128x1x512x512, .f32⟩
  | .hbm, ⟨73, _⟩ => ⟨S128x1x512x512, .f32⟩
  | .hbm, ⟨74, _⟩ => ⟨S128x1x512x512, .f32⟩
  | .hbm, ⟨75, _⟩ => ⟨S128x1x512x512, .f32⟩
  | .hbm, ⟨76, _⟩ => ⟨S128x1x1, .f32⟩
  | .hbm, ⟨77, _⟩ => ⟨S128, .f32⟩
  | .hbm, ⟨78, _⟩ => ⟨S128x1x1x1, .f32⟩
  | .hbm, ⟨79, _⟩ => ⟨S128x1x512x512, .f32⟩
  | .hbm, ⟨80, _⟩ => ⟨S128x1x512x512, .f32⟩
  | .hbm, ⟨81, _⟩ => ⟨S128x1x512x512, .f32⟩
  | .hbm, ⟨82, _⟩ => ⟨S128x1x512x512, .f32⟩
  | .hbm, ⟨83, _⟩ => ⟨S128x1x1, .f32⟩
  | .hbm, ⟨84, _⟩ => ⟨S128, .f32⟩
  | .hbm, ⟨85, _⟩ => ⟨S128x1x1x1, .f32⟩
  | .hbm, ⟨86, _⟩ => ⟨S128x1x512x512, .f32⟩
  | .hbm, ⟨87, _⟩ => ⟨S128x1x512x512, .f32⟩
  | .hbm, ⟨88, _⟩ => ⟨S128x1x512x512, .f32⟩
  | .hbm, ⟨89, _⟩ => ⟨S128x1x512x512, .f32⟩
  | .hbm, ⟨90, _⟩ => ⟨S_, .f32⟩
  | .hbm, ⟨91, _⟩ => ⟨S128, .f32⟩
  | _, _ => ⟨S128x1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c : Ref sig .tc := ⟨.hbm, 22, rfl⟩
abbrev main_call0_v0 : Ref sig .tc := ⟨.hbm, 23, rfl⟩
abbrev main_v14 : Ref sig .tc := ⟨.hbm, 24, rfl⟩
abbrev main_cst_0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_cst_1 : Ref sig .tc := ⟨.hbm, 90, rfl⟩
abbrev main_v79 : Ref sig .tc := ⟨.hbm, 91, rfl⟩

abbrev nD : Nat := 1
abbrev τ : Topo := Topo.v7x

variable {F : FTy → Type} [FloatOps F]

class Facts₀ : Prop where
  bcast_S8_S128x8_1 : S8.BroadcastsInDim S128x8 (![1] : Fin 1 → Fin S128x8.rank)
  concatenates_S128x8_S128x64_S128x72_d1 : Shape.Concatenates [S128x8, S128x64] S128x72 1
  bcast_S128_S1x128_1 : S128.BroadcastsInDim S1x128 (![1] : Fin 1 → Fin S1x128.rank)
  bcast_S1x128_S128x128_0_1 : S1x128.BroadcastsInDim S128x128 (![0, 1] : Fin 2 → Fin S128x128.rank)
  bcast_S8_S1x8_1 : S8.BroadcastsInDim S1x8 (![1] : Fin 1 → Fin S1x8.rank)
  bcast_S1x8_S128x8_0_1 : S1x8.BroadcastsInDim S128x8 (![0, 1] : Fin 2 → Fin S128x8.rank)
  bcast_S_S128x1 : S_.BroadcastsInDim S128x1 (![] : Fin 0 → Fin S128x1.rank)
  concatenates_S128x8_S128x1_S128x9_d1 : Shape.Concatenates [S128x8, S128x1] S128x9 1
  shapeCasts_S128x9_S128x3x3 : S128x9.ShapeCasts S128x3x3
  pads_S128x1x512x512_S128x1x514x514_000_000_200_200 : S128x1x512x512.Pads (![0, 0, 2, 2] : Fin 4 → Nat) ![0, 0, 0, 0] ![0, 0, 0, 0] S128x1x514x514
  h_S_ : 0 < S_.numel
  bcast_S_S128x1x512x512 : S_.BroadcastsInDim S128x1x512x512 (![] : Fin 0 → Fin S128x1x512x512.rank)
  slices_S128x3x3_S128x1x1_0_0_0 : S128x3x3.Slices ![0, 0, 0] S128x1x1
  shapeCasts_S128x1x1_S128 : S128x1x1.ShapeCasts S128
  bcast_S128_S128x1x1x1_0 : S128.BroadcastsInDim S128x1x1x1 (![0] : Fin 1 → Fin S128x1x1x1.rank)
  slices_S128x1x514x514_S128x1x512x512_0_0_0_0 : S128x1x514x514.Slices ![0, 0, 0, 0] S128x1x512x512
  bcast_S128x1x1x1_S128x1x512x512_0_1_2_3 : S128x1x1x1.BroadcastsInDim S128x1x512x512 (![0, 1, 2, 3] : Fin 4 → Fin S128x1x512x512.rank)
  slices_S128x3x3_S128x1x1_0_0_1 : S128x3x3.Slices ![0, 0, 1] S128x1x1
  slices_S128x1x514x514_S128x1x512x512_0_0_0_1 : S128x1x514x514.Slices ![0, 0, 0, 1] S128x1x512x512
  slices_S128x3x3_S128x1x1_0_0_2 : S128x3x3.Slices ![0, 0, 2] S128x1x1
  slices_S128x1x514x514_S128x1x512x512_0_0_0_2 : S128x1x514x514.Slices ![0, 0, 0, 2] S128x1x512x512
  slices_S128x3x3_S128x1x1_0_1_0 : S128x3x3.Slices ![0, 1, 0] S128x1x1
  slices_S128x1x514x514_S128x1x512x512_0_0_1_0 : S128x1x514x514.Slices ![0, 0, 1, 0] S128x1x512x512
  slices_S128x3x3_S128x1x1_0_1_1 : S128x3x3.Slices ![0, 1, 1] S128x1x1
  slices_S128x1x514x514_S128x1x512x512_0_0_1_1 : S128x1x514x514.Slices ![0, 0, 1, 1] S128x1x512x512
  slices_S128x3x3_S128x1x1_0_1_2 : S128x3x3.Slices ![0, 1, 2] S128x1x1
  slices_S128x1x514x514_S128x1x512x512_0_0_1_2 : S128x1x514x514.Slices ![0, 0, 1, 2] S128x1x512x512
  slices_S128x3x3_S128x1x1_0_2_0 : S128x3x3.Slices ![0, 2, 0] S128x1x1
  slices_S128x1x514x514_S128x1x512x512_0_0_2_0 : S128x1x514x514.Slices ![0, 0, 2, 0] S128x1x512x512
  slices_S128x3x3_S128x1x1_0_2_1 : S128x3x3.Slices ![0, 2, 1] S128x1x1
  slices_S128x1x514x514_S128x1x512x512_0_0_2_1 : S128x1x514x514.Slices ![0, 0, 2, 1] S128x1x512x512
  slices_S128x3x3_S128x1x1_0_2_2 : S128x3x3.Slices ![0, 2, 2] S128x1x1
  slices_S128x1x514x514_S128x1x512x512_0_0_2_2 : S128x1x514x514.Slices ![0, 0, 2, 2] S128x1x512x512
  bcast_S_S128 : S_.BroadcastsInDim S128 (![] : Fin 0 → Fin S128.rank)
  dot_S128x72_S72x128_S128x128_1_0_0_1_n_n_wf : DotDims.WF S128x72 S72x128 S128x128 [1] [0] [0] [1] [] []
  dot_S128x128_S128x8_S128x8_1_0_0_1_n_n_wf : DotDims.WF S128x128 S128x8 S128x8 [1] [0] [0] [1] [] []

variable [Facts₀]

def dot_S128x72_S72x128_S128x128_1_0_0_1_n_n : DotDims S128x72 S72x128 S128x128 where
  lhsContracting := [1]
  rhsContracting := [0]
  lhsNonContracting := [0]
  rhsNonContracting := [1]
  lhsBatch := []
  rhsBatch := []
  wf := dot_S128x72_S72x128_S128x128_1_0_0_1_n_n_wf
def dot_S128x128_S128x8_S128x8_1_0_0_1_n_n : DotDims S128x128 S128x8 S128x8 where
  lhsContracting := [1]
  rhsContracting := [0]
  lhsNonContracting := [0]
  rhsNonContracting := [1]
  lhsBatch := []
  rhsBatch := []
  wf := dot_S128x128_S128x8_S128x8_1_0_0_1_n_n_wf

class Facts : Prop extends Facts₀ where

variable [Facts]
-- ==== Proof.BodyChain.lean ====
/-
  What one grid point leaves in the output block, for any float values. The body zeroes the block, then nine times
  loads it back, adds one tap and stores it again; every store covers the whole block, so each load reads exactly
  what the store before it wrote. Unwinding that read-after-write chain, the block the point leaves is the nine
  accumulation steps composed on the zero block, as one pure term of the two input blocks (`chain`).
-/
import proofs.«165163_j23622320128141_1_alg».proof.Proof.Gen.KernelIdeal.Frame
import Idealize.ShloMosaic.Lib.Pipeline.Value
import Idealize.ShloMosaic.Lib.Tactic

set_option maxRecDepth 16384

noncomputable section

namespace Cert.KernelIdeal.Body

open Idealize.ShloMosaic Idealize.ShloMosaic.TcCoe Idealize.SL.Sem Cert.KernelIdeal Cert.KernelIdeal.Gen

variable {F : FTy → Type} [FloatOps F]

theorem hz3 : (![0, 0, 0] : Fin 3 → Nat) = fun _ => 0 := funext fun a => by fin_cases a <;> rfl

/-- The nine accumulation steps on the zero block, in the order the body makes them: taps (0,0), (0,1), (0,2),
    (1,0), (1,1), (1,2), (2,0), (2,1), (2,2) of the image block `x0` padded, weighted by the kernel block `x1`. -/
def chain (x0 : Vec F S4x512x512 .f32) (x1 : Vec F S4x3x3 .f32) : Vec F S4x512x512 .f32 :=
  k0_pay4 (k0_pay5 x1) (k0_pay6 x0)
    (k0_pay3 (k0_pay5 x1) (k0_pay6 x0)
      (k0_pay2 (k0_pay5 x1) (k0_pay6 x0)
        (k0_pay1
          (k0_pay14
            (k0_pay13 (k0_pay5 x1) (k0_pay6 x0)
              (k0_pay12 (k0_pay5 x1) (k0_pay6 x0)
                (k0_pay11 (k0_pay6 x0) (k0_pay10 x1)
                  (k0_pay9 x0 x1 (k0_pay8 x0 x1 (k0_pay7 (F := F))))))))
          (k0_pay15 (k0_pay5 x1) (k0_pay6 x0)))))

/-- The block a grid point leaves is the chain of its two input blocks: the last store's payload, in which every
    load of the output block reads the payload of the store just before it. -/
theorem out_eq_chain (c : Dev nD) (i : grid0.Coords) (a1 : Memref sig .tc .vmem S4x512x512 .f32) (h1 : a1.IsWhole)
    (a2 : Memref sig .tc .vmem S4x3x3 .f32) (h2 : a2.IsWhole) (a3 : Memref sig .tc .vmem S4x512x512 .f32) (h3 : a3.IsWhole)
    (x0 : Vec F S4x512x512 .f32) (x1 : Vec F S4x3x3 .f32) :
    out0_A_2 c i a1 h1 a2 h2 a3 h3 x0 x1 = chain x0 x1 := by
  unfold out0_A_2
  rw [View.read_writes_eq_canon _ _ _ (cover0_A_2 c i a1 h1 a2 h2 a3 h3 x0 x1)]
  unfold kernelRun0_A
  dsimp only
  rw [View.canon_cons_unit_zero (S := S4x512x512) hz3]
  sl_unfold_words
  simp only [View.readCov_cons_toLoadRect, View.readAt_eq_ld, h1.read_unread, h2.read_unread,
    View.ld_unit_zero (S := S4x512x512) hz3, View.ld_unit_zero (S := S4x3x3) hz3]
  rfl

end Cert.KernelIdeal.Body

end
-- ==== Proof.ConvSpec.lean ====
/-
  The mathematics both programs compute: a 3x3 cross-correlation of one 512x512 image, zero-padded by two rows
  above and two columns on the left, the nine taps added in row-major order of the tap (i, j) onto a zero:
  z[r, c] = ((((0 + k[0,0]·p[r, c]) + k[0,1]·p[r, c+1]) + … ) + k[2,2]·p[r+2, c+2]), p the padded image.
  Everything is over the extended reals; no law of arithmetic is used, so no finiteness is needed: the two sides
  will be this very expression, tap for tap.
-/
import Idealize.ShloMosaic.PureOps.Ideal
import Idealize.ShloMosaic.PureOps.Ideal.Laws
import Idealize.ShloMosaic.Lib.ValueIdx

noncomputable section

namespace Cert.ConvSpec

open Idealize.ShloMosaic Idealize.ShloMosaic.ValueIdx

/-- Coordinate `r` of the image moved by the tap offset `i`: a coordinate of the padded image. -/
def sh (r : Fin 512) (i : Fin 3) : Fin 514 := ⟨r.val + i.val, by omega⟩

/-- The image with two zero rows above it and two zero columns on its left, read at row `R`, column `C`. -/
def padAt (x : Fin 512 → Fin 512 → EReal) (R C : Fin 514) : EReal :=
  if h : 2 ≤ R.val ∧ 2 ≤ C.val then x ⟨R.val - 2, by omega⟩ ⟨C.val - 2, by omega⟩ else 0

/-- One tap: the kernel entry (i, j) times the padded image at (r + i, c + j). -/
def tap (k : Fin 3 → Fin 3 → EReal) (x : Fin 512 → Fin 512 → EReal) (r c : Fin 512) (i j : Fin 3) : EReal :=
  k i j * padAt x (sh r i) (sh c j)

/-- The nine taps added onto zero, first row of the kernel first, left to right. -/
def conv9 (k : Fin 3 → Fin 3 → EReal) (x : Fin 512 → Fin 512 → EReal) (r c : Fin 512) : EReal :=
  0 + tap k x r c 0 0 + tap k x r c 0 1 + tap k x r c 0 2
    + tap k x r c 1 0 + tap k x r c 1 1 + tap k x r c 1 2
    + tap k x r c 2 0 + tap k x r c 2 1 + tap k x r c 2 2

/-- The whole batch: sample `b` of the result is the correlation of sample `b`'s image (one channel) with sample
    `b`'s 3x3 kernel. -/
def convAll (ck : (⟨3, ![128, 3, 3]⟩ : Shape).Idx → EReal) (x : (⟨4, ![128, 1, 512, 512]⟩ : Shape).Idx → EReal) :
    (⟨4, ![128, 1, 512, 512]⟩ : Shape).Idx → EReal :=
  fun y => conv9 (fun i j => ck (ix3 (y 0) i j)) (fun r c => x (ix4 (y 0) 0 r c)) (y 2) (y 3)

end Cert.ConvSpec

end
-- ==== Proof.BlockTaps.lean ====
/-
  One block of four samples, index by index. The kernel pads its block of images in registers — two zero rows
  joined above, then two zero columns joined on the left — and accumulates, tap by tap, the kernel entry of the
  sample (a [4,3,3] slice re-laid as [4] then [4,1,1] and broadcast over the image) times a shifted window of the
  padded block. Read at (sample b, row r, column c):
    the padded block at (b, R, C) is the zero-padded image of sample b at (R, C)             (`padded_apply`)
    a tap's coefficient at (b, r, c) is the kernel entry (b, i, j)                           (`coef_apply`)
    one accumulation step adds  k[b,i,j] · padded[b, r+i, c+j]  to the accumulator at (b, r, c)   (`step_apply`).
-/
import proofs.«165163_j23622320128141_1_alg».proof.Proof.ConvSpec
import Idealize.ShloMosaic.Lib.Pipeline.Value
import Idealize.ShloMosaic.Lib.ValueIdx
import Idealize.ShloMosaic.PureOps.Ideal.Laws

noncomputable section

namespace Cert.BlockTaps

open Idealize.ShloMosaic Idealize.ShloMosaic.ValueIdx Cert.ConvSpec

/-- The shapes of one block: kernels, a kernel entry per sample (two layouts), images, padded images, the
    intermediate with only the rows padded, and the two zero strips. -/
abbrev K3 : Shape := ⟨3, ![4, 3, 3]⟩
abbrev U3 : Shape := ⟨3, ![4, 1, 1]⟩
abbrev V4 : Shape := ⟨1, ![4]⟩
abbrev B3 : Shape := ⟨3, ![4, 512, 512]⟩
abbrev P3 : Shape := ⟨3, ![4, 514, 514]⟩
abbrev Q3 : Shape := ⟨3, ![4, 514, 512]⟩
abbrev Zr : Shape := ⟨3, ![4, 2, 512]⟩
abbrev Zc : Shape := ⟨3, ![4, 514, 2]⟩

/-- A tap's coefficient: entry (i, j) of every sample's kernel, sliced out as [4,1,1], flattened to [4], re-laid as
    [4,1,1] and broadcast over the image, is at (b, r, c) the kernel entry (b, i, j). -/
theorem coef_apply {α : Type} (v3 : K3.Idx → α) (i j : Fin 3) (off : Fin 3 → Nat) (hoff : off = ![0, i.val, j.val])
    (h1 : K3.Slices off U3) (h2 : U3.ShapeCasts V4) (h3 : V4.ShapeCasts U3) (h4 : U3.Broadcasts B3)
    (b : Fin 4) (r c : Fin 512) :
    broadcastTo B3 (shapeCast U3 (shapeCast V4 (extractStridedSlice U3 off v3 h1) h2) h3) h4 (ix3 b r c)
      = v3 (ix3 b i j) := by
  subst hoff
  rw [shapeCast_shapeCast]
  refine (broadcastTo_apply _ h4 (ix3 b r c) (ix3 b 0 0) (fun a => ?_)).trans ?_
  · match a with
    | ⟨0, _⟩ => rfl
    | ⟨1, _⟩ => rfl
    | ⟨2, _⟩ => rfl
  · refine extractStridedSlice_apply _ v3 h1 (ix3 b 0 0) (ix3 b i j) (fun a => ?_)
    match a with
    | ⟨0, _⟩ => show b.val = 0 + b.val; omega
    | ⟨1, _⟩ => show i.val = i.val + 0; omega
    | ⟨2, _⟩ => show j.val = j.val + 0; omega

/-- The padded block — zero columns joined on the left of (zero rows joined above the block) — at (b, R, C) is
    the zero-padded image of sample `b` at (R, C). -/
theorem padded_apply (z : EReal) (hz : z = 0) (v0 : B3.Idx → EReal) (h1 : B3.ShapeCasts B3)
    (hc1 : Shape.Concatenates [Zr, B3] Q3 1) (hc2 : Shape.Concatenates [Zc, Q3] P3 2) (b : Fin 4) (R C : Fin 514) :
    concatenate P3 2 [⟨Zc, broadcast Zc z⟩,
        ⟨Q3, concatenate Q3 1 [⟨Zr, broadcast Zr z⟩, ⟨B3, shapeCast B3 v0 h1⟩] hc1⟩] hc2 (ix3 b R C)
      = padAt (fun r c => v0 (ix3 b r c)) R C := by
  unfold padAt
  by_cases hC : 2 ≤ C.val
  · have hC' : C.val - 2 < 512 := by have := C.isLt; omega
    refine (concatenate_pair_apply_right (t := P3) (s₁ := Zc) (s₂ := Q3) (2 : Fin 3) _ _ hc2 (ix3 b R C) rfl rfl
      (ix3 b R ⟨C.val - 2, hC'⟩ : Q3.Idx) (fun a ha => ?_) ?_).trans ?_
    · match a with
      | ⟨0, _⟩ => rfl
      | ⟨1, _⟩ => rfl
      | ⟨2, _⟩ => exact absurd rfl ha
    · show (C.val - 2) + 2 = C.val; omega
    · by_cases hR : 2 ≤ R.val
      · have hR' : R.val - 2 < 512 := by have := R.isLt; omega
        refine (concatenate_pair_apply_right (t := Q3) (s₁ := Zr) (s₂ := B3) (1 : Fin 3) _ _ hc1
          (ix3 b R ⟨C.val - 2, hC'⟩ : Q3.Idx) rfl rfl
          (ix3 b ⟨R.val - 2, hR'⟩ ⟨C.val - 2, hC'⟩ : B3.Idx) (fun a ha => ?_) ?_).trans ?_
        · match a with
          | ⟨0, _⟩ => rfl
          | ⟨1, _⟩ => exact absurd rfl ha
          | ⟨2, _⟩ => rfl
        · show (R.val - 2) + 2 = R.val; omega
        · rw [shapeCast_self, dif_pos ⟨hR, hC⟩]
      · have hR' : R.val < 2 := by omega
        refine (concatenate_pair_apply_left (t := Q3) (s₁ := Zr) (s₂ := B3) (1 : Fin 3) _ _ hc1
          (ix3 b R ⟨C.val - 2, hC'⟩ : Q3.Idx) rfl
          (ix3 b ⟨R.val, hR'⟩ ⟨C.val - 2, hC'⟩ : Zr.Idx) (fun a => ?_)).trans ?_
        · match a with
          | ⟨0, _⟩ => rfl
          | ⟨1, _⟩ => rfl
          | ⟨2, _⟩ => rfl
        · rw [dif_neg (fun h => hR h.1)]; exact hz
  · have hC' : C.val < 2 := by omega
    refine (concatenate_pair_apply_left (t := P3) (s₁ := Zc) (s₂ := Q3) (2 : Fin 3) _ _ hc2 (ix3 b R C) rfl
      (ix3 b R ⟨C.val, hC'⟩ : Zc.Idx) (fun a => ?_)).trans ?_
    · match a with
      | ⟨0, _⟩ => rfl
      | ⟨1, _⟩ => rfl
      | ⟨2, _⟩ => rfl
    · rw [dif_neg (fun h => hC h.2)]; exact hz

/-- One accumulation step at (b, r, c): the accumulator there plus the kernel entry (b, i, j) times the padded
    block at (b, r + i, c + j). -/
theorem step_apply (acc : FVec Ideal B3 .f32) (v3 : FVec Ideal K3 .f32) (v7 : FVec Ideal P3 .f32) (i j : Fin 3)
    (off3 : Fin 3 → Nat) (hoff3 : off3 = ![0, i.val, j.val]) (offp : Fin 3 → Nat) (hoffp : offp = ![0, i.val, j.val])
    (h1 : K3.Slices off3 U3) (h2 : U3.ShapeCasts V4) (h3 : V4.ShapeCasts U3) (h4 : U3.Broadcasts B3)
    (hs : P3.Slices offp B3) (hc : B3.ShapeCasts B3) (b : Fin 4) (r c : Fin 512) :
    addf (shapeCast B3 acc hc)
        (mulf (broadcastTo B3 (shapeCast U3 (shapeCast V4 (extractStridedSlice U3 off3 v3 h1) h2) h3) h4)
          (extractStridedSlice B3 offp v7 hs)) (ix3 b r c)
      = acc (ix3 b r c) + v3 (ix3 b i j) * v7 (ix3 b (sh r i) (sh c j)) := by
  rw [addf_apply, mulf_apply, shapeCast_self, coef_apply v3 i j off3 hoff3]
  subst hoffp
  congr 2
  refine extractStridedSlice_apply _ v7 hs (ix3 b r c) (ix3 b (sh r i) (sh c j)) (fun a => ?_)
  match a with
  | ⟨0, _⟩ => show b.val = 0 + b.val; omega
  | ⟨1, _⟩ => show r.val + i.val = i.val + r.val; omega
  | ⟨2, _⟩ => show c.val + j.val = j.val + c.val; omega

end Cert.BlockTaps

end
-- ==== Proof.BlockValue.lean ====
/-
  One grid point's block at the extended reals, index by index: the chain of nine accumulation steps, read at
  (sample b of the block, row r, column c), is the nine-tap correlation of sample b's image block with sample b's
  3x3 kernel — each step adds the kernel entry (b, i, j) times the zero-padded image at (r + i, c + j), in the same
  order as the specification adds its taps, so the two are the same expression.
-/
import proofs.«165163_j23622320128141_1_alg».proof.Proof.BodyChain
import proofs.«165163_j23622320128141_1_alg».proof.Proof.BlockTaps

noncomputable section

namespace Cert.KernelIdeal.Body

open Idealize.ShloMosaic Idealize.ShloMosaic.ValueIdx Cert.KernelIdeal Cert.KernelIdeal.Gen Cert.ConvSpec Cert.BlockTaps

/-- Sample `b`'s 3x3 kernel, out of a block of four kernels. -/
def kern (x1 : Vec Ideal S4x3x3 .f32) (b : Fin 4) : Fin 3 → Fin 3 → EReal := fun i j => x1 (ix3 b i j)
/-- Sample `b`'s image, out of a block of four images. -/
def img (x0 : Vec Ideal S4x512x512 .f32) (b : Fin 4) : Fin 512 → Fin 512 → EReal := fun r c => x0 (ix3 b r c)

/-- The zero the body splats is the real number zero. -/
theorem zero_word : (Scalar.ofBits .f32 0x00000000#32 : Ideal .f32) = 0 := Ideal.ofBits_zero_f32

/-- The padded block the body builds, at (b, R, C): sample `b`'s image zero-padded, at (R, C). -/
theorem padded_eq (x0 : Vec Ideal S4x512x512 .f32) (b : Fin 4) (R C : Fin 514) :
    k0_pay6 x0 (ix3 b R C) = padAt (img x0 b) R C := by
  unfold k0_pay6
  exact padded_apply _ zero_word x0 _ _ _ b R C

/-- The kernel block as the body re-lays it is the kernel block. -/
theorem kernels_eq (x1 : Vec Ideal S4x3x3 .f32) : k0_pay5 x1 = x1 := shapeCast_self _ _

/-- A tap's product at (b, r, c) is the specification's tap (i, j) of sample `b`. -/
theorem tap_eq (x0 : Vec Ideal S4x512x512 .f32) (x1 : Vec Ideal S4x3x3 .f32) (b : Fin 4) (r c : Fin 512) (i j : Fin 3) :
    k0_pay5 x1 (ix3 b i j) * k0_pay6 x0 (ix3 b (sh r i) (sh c j)) = tap (kern x1 b) (img x0 b) r c i j := by
  rw [kernels_eq, padded_eq]; rfl

/-- The step of tap (0, 0). -/
theorem step00 (x0 : Vec Ideal S4x512x512 .f32) (x1 : Vec Ideal S4x3x3 .f32) (acc : Vec Ideal S4x512x512 .f32)
    (b : Fin 4) (r c : Fin 512) :
    k0_pay8 x0 x1 acc (ix3 b r c) = acc (ix3 b r c) + tap (kern x1 b) (img x0 b) r c 0 0 := by
  unfold k0_pay8
  exact (step_apply acc (k0_pay5 x1) (k0_pay6 x0) 0 0 _ rfl _ rfl _ _ _ _ _ _ b r c).trans
    (congrArg (acc (ix3 b r c) + ·) (tap_eq x0 x1 b r c 0 0))

/-- The step of tap (0, 1). -/
theorem step01 (x0 : Vec Ideal S4x512x512 .f32) (x1 : Vec Ideal S4x3x3 .f32) (acc : Vec Ideal S4x512x512 .f32)
    (b : Fin 4) (r c : Fin 512) :
    k0_pay9 x0 x1 acc (ix3 b r c) = acc (ix3 b r c) + tap (kern x1 b) (img x0 b) r c 0 1 := by
  unfold k0_pay9
  exact (step_apply acc (k0_pay5 x1) (k0_pay6 x0) 0 1 _ rfl _ rfl _ _ _ _ _ _ b r c).trans
    (congrArg (acc (ix3 b r c) + ·) (tap_eq x0 x1 b r c 0 1))

/-- The step of tap (0, 2). -/
theorem step02 (x0 : Vec Ideal S4x512x512 .f32) (x1 : Vec Ideal S4x3x3 .f32) (acc : Vec Ideal S4x512x512 .f32)
    (b : Fin 4) (r c : Fin 512) :
    k0_pay11 (k0_pay6 x0) (k0_pay10 x1) acc (ix3 b r c) = acc (ix3 b r c) + tap (kern x1 b) (img x0 b) r c 0 2 := by
  unfold k0_pay11 k0_pay10
  exact (step_apply acc (k0_pay5 x1) (k0_pay6 x0) 0 2 _ rfl _ rfl _ _ _ _ _ _ b r c).trans
    (congrArg (acc (ix3 b r c) + ·) (tap_eq x0 x1 b r c 0 2))

/-- The step of tap (1, 0). -/
theorem step10 (x0 : Vec Ideal S4x512x512 .f32) (x1 : Vec Ideal S4x3x3 .f32) (acc : Vec Ideal S4x512x512 .f32)
    (b : Fin 4) (r c : Fin 512) :
    k0_pay12 (k0_pay5 x1) (k0_pay6 x0) acc (ix3 b r c) = acc (ix3 b r c) + tap (kern x1 b) (img x0 b) r c 1 0 := by
  unfold k0_pay12
  exact (step_apply acc (k0_pay5 x1) (k0_pay6 x0) 1 0 _ rfl _ rfl _ _ _ _ _ _ b r c).trans
    (congrArg (acc (ix3 b r c) + ·) (tap_eq x0 x1 b r c 1 0))

/-- The step of tap (1, 1). -/
theorem step11 (x0 : Vec Ideal S4x512x512 .f32) (x1 : Vec Ideal S4x3x3 .f32) (acc : Vec Ideal S4x512x512 .f32)
    (b : Fin 4) (r c : Fin 512) :
    k0_pay13 (k0_pay5 x1) (k0_pay6 x0) acc (ix3 b r c) = acc (ix3 b r c) + tap (kern x1 b) (img x0 b) r c 1 1 := by
  unfold k0_pay13
  exact (step_apply acc (k0_pay5 x1) (k0_pay6 x0) 1 1 _ rfl _ rfl _ _ _ _ _ _ b r c).trans
    (congrArg (acc (ix3 b r c) + ·) (tap_eq x0 x1 b r c 1 1))

/-- The step of tap (1, 2). -/
theorem step12 (x0 : Vec Ideal S4x512x512 .f32) (x1 : Vec Ideal S4x3x3 .f32) (acc : Vec Ideal S4x512x512 .f32)
    (b : Fin 4) (r c : Fin 512) :
    k0_pay1 (k0_pay14 acc) (k0_pay15 (k0_pay5 x1) (k0_pay6 x0)) (ix3 b r c) = acc (ix3 b r c) + tap (kern x1 b) (img x0 b) r c 1 2 := by
  unfold k0_pay1 k0_pay14 k0_pay15
  exact (step_apply acc (k0_pay5 x1) (k0_pay6 x0) 1 2 _ rfl _ rfl _ _ _ _ _ _ b r c).trans
    (congrArg (acc (ix3 b r c) + ·) (tap_eq x0 x1 b r c 1 2))

/-- The step of tap (2, 0). -/
theorem step20 (x0 : Vec Ideal S4x512x512 .f32) (x1 : Vec Ideal S4x3x3 .f32) (acc : Vec Ideal S4x512x512 .f32)
    (b : Fin 4) (r c : Fin 512) :
    k0_pay2 (k0_pay5 x1) (k0_pay6 x0) acc (ix3 b r c) = acc (ix3 b r c) + tap (kern x1 b) (img x0 b) r c 2 0 := by
  unfold k0_pay2
  exact (step_apply acc (k0_pay5 x1) (k0_pay6 x0) 2 0 _ rfl _ rfl _ _ _ _ _ _ b r c).trans
    (congrArg (acc (ix3 b r c) + ·) (tap_eq x0 x1 b r c 2 0))

/-- The step of tap (2, 1). -/
theorem step21 (x0 : Vec Ideal S4x512x512 .f32) (x1 : Vec Ideal S4x3x3 .f32) (acc : Vec Ideal S4x512x512 .f32)
    (b : Fin 4) (r c : Fin 512) :
    k0_pay3 (k0_pay5 x1) (k0_pay6 x0) acc (ix3 b r c) = acc (ix3 b r c) + tap (kern x1 b) (img x0 b) r c 2 1 := by
  unfold k0_pay3
  exact (step_apply acc (k0_pay5 x1) (k0_pay6 x0) 2 1 _ rfl _ rfl _ _ _ _ _ _ b r c).trans
    (congrArg (acc (ix3 b r c) + ·) (tap_eq x0 x1 b r c 2 1))

/-- The step of tap (2, 2). -/
theorem step22 (x0 : Vec Ideal S4x512x512 .f32) (x1 : Vec Ideal S4x3x3 .f32) (acc : Vec Ideal S4x512x512 .f32)
    (b : Fin 4) (r c : Fin 512) :
    k0_pay4 (k0_pay5 x1) (k0_pay6 x0) acc (ix3 b r c) = acc (ix3 b r c) + tap (kern x1 b) (img x0 b) r c 2 2 := by
  unfold k0_pay4
  exact (step_apply acc (k0_pay5 x1) (k0_pay6 x0) 2 2 _ rfl _ rfl _ _ _ _ _ _ b r c).trans
    (congrArg (acc (ix3 b r c) + ·) (tap_eq x0 x1 b r c 2 2))

/-- The zero block at an index. -/
theorem zero_block (b : Fin 4) (r c : Fin 512) : k0_pay7 (F := Ideal) (ix3 b r c) = 0 := zero_word

/-- The block a grid point leaves, at (b, r, c): the nine-tap correlation of sample `b` at (r, c). -/
theorem chain_apply (x0 : Vec Ideal S4x512x512 .f32) (x1 : Vec Ideal S4x3x3 .f32) (b : Fin 4) (r c : Fin 512) :
    chain x0 x1 (ix3 b r c) = conv9 (kern x1 b) (img x0 b) r c := by
  unfold chain conv9
  rw [step22, step21, step20, step12, step11, step10, step02, step01, step00, zero_block]

end Cert.KernelIdeal.Body

end
-- ==== Proof.KernelArray.lean ====
/-
  The array the pallas_call leaves, at the extended reals. Grid point t stages samples 4t … 4t+3 of the images and
  of the per-sample kernels and writes back samples 4t … 4t+3 of the result, so the 32 points' blocks tile the
  [128, 512, 512] result and each block is the restriction of ONE function of the two whole operands: at
  (sample s, row r, column c) the nine-tap correlation of image s with kernel s (`arrG`). The operands themselves are
  host values: the images the argument with its unit channel axis dropped, the kernels the small network's output
  (`netKernels`), which is never opened here.
-/
import proofs.«165163_j23622320128141_1_alg».proof.Proof.BlockValue
import Idealize.ShloMosaic.Lib.Pipeline.Value
import Idealize.ShloMosaic.Lib.StableHlo.Run

set_option maxRecDepth 16384

noncomputable section

namespace Cert.KernelIdeal.Arr

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Body Cert.ConvSpec

variable (m : (ℓ : Loc nD τ sig) → Buf (Elt Ideal) ℓ) (ρ : Dev nD → PrngReg)

/-- The region's result as one function of its two operands: sample `s` of the result is the nine-tap correlation
    of image `s` with kernel `s`. -/
def arrG (ck : S128x3x3.Idx → EReal) (x3 : S128x512x512.Idx → EReal) : S128x512x512.Idx → EReal :=
  fun y => conv9 (fun i j => ck (ix3 (y 0) i j)) (fun r c => x3 (ix3 (y 0) r c)) (y 1) (y 2)

/-- A block of four samples is the restriction of `arrG`: if the block's images and kernels are samples
    4q … 4q+3 of the operands, the block's chain at a block index is `arrG` at the array index it lands on. -/
theorem block_eq (x0 : Vec Ideal S4x512x512 .f32) (x1 : Vec Ideal S4x3x3 .f32) (ck : S128x3x3.Idx → EReal)
    (x3 : S128x512x512.Idx → EReal) (q : Nat) (j : S4x512x512.Idx) (i : S128x512x512.Idx)
    (h0 : (i 0).val = q * 4 + (j 0).val) (h1 : (i 1).val = (j 1).val) (h2 : (i 2).val = (j 2).val)
    (hx0 : ∀ (b : Fin 4) (r c : Fin 512) (s : Fin 128), s.val = q * 4 + b.val → x0 (ix3 b r c) = x3 (ix3 s r c))
    (hx1 : ∀ (b : Fin 4) (a d : Fin 3) (s : Fin 128), s.val = q * 4 + b.val → x1 (ix3 b a d) = ck (ix3 s a d)) :
    chain x0 x1 j = arrG ck x3 i := by
  obtain ⟨b, r, c, rfl⟩ : ∃ (b : Fin 4) (r c : Fin 512), j = ix3 b r c := ⟨j 0, j 1, j 2, eq_ix3 j⟩
  rw [chain_apply]
  unfold arrG
  have e1 : i 1 = r := Fin.ext h1
  have e2 : i 2 = c := Fin.ext h2
  rw [e1, e2]
  have ek : kern x1 b = fun a d => ck (ix3 (i 0) a d) := funext fun a => funext fun d => hx1 b a d (i 0) h0
  have ex : img x0 b = fun r c => x3 (ix3 (i 0) r c) := funext fun r => funext fun c => hx0 b r c (i 0) h0
  rw [ek, ex]

/-- The printed index maps, decided over the 32 grid points: every window's block index is (t, 0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- The image window's block at point `t`, read at a block index, is the image operand at the array index with
    the sample moved by 4t. -/
theorem iblk0_apply (c : Dev nD) (t : Fin cfg0.N) (b : Fin 4) (r c' : Fin 512) (s : Fin 128) (hs : s.val = t.val * 4 + b.val) :
    (iblk m c 0 t : Vec Ideal S4x512x512 .f32) (ix3 b r c') = V m c main_v14 (ix3 s r c') := by
  obtain ⟨e0, e1, e2, -⟩ := idx_facts t
  unfold iblk
  rw [View.read_apply]
  show V m c main_v14 (((cfg0.win 0).blk t).view.emb (ix3 b r c')) = V m c main_v14 (ix3 s r c')
  refine congrArg _ (funext fun a => Fin.ext ?_)
  match a with
  | ⟨0, _⟩ => show win0_0.index t (0 : Fin 3) * 4 + 1 * b.val = s.val; omega
  | ⟨1, _⟩ => show win0_0.index t (1 : Fin 3) * 512 + 1 * r.val = r.val; omega
  | ⟨2, _⟩ => show win0_0.index t (2 : Fin 3) * 512 + 1 * c'.val = c'.val; omega

/-- The kernel window's block at point `t`, likewise. -/
theorem iblk1_apply (c : Dev nD) (t : Fin cfg0.N) (b : Fin 4) (a d : Fin 3) (s : Fin 128) (hs : s.val = t.val * 4 + b.val) :
    (iblk m c 1 t : Vec Ideal S4x3x3 .f32) (ix3 b a d) = V m c main_v13 (ix3 s a d) := by
  obtain ⟨-, -, -, e0, e1, e2, -⟩ := idx_facts t
  unfold iblk
  rw [View.read_apply]
  show V m c main_v13 (((cfg0.win 1).blk t).view.emb (ix3 b a d)) = V m c main_v13 (ix3 s a d)
  refine congrArg _ (funext fun x => Fin.ext ?_)
  match x with
  | ⟨0, _⟩ => show win0_1.index t (0 : Fin 3) * 4 + 1 * b.val = s.val; omega
  | ⟨1, _⟩ => show win0_1.index t (1 : Fin 3) * 3 + 1 * a.val = a.val; omega
  | ⟨2, _⟩ => show win0_1.index t (2 : Fin 3) * 3 + 1 * d.val = d.val; omega

/-- What point `t` writes back is block `t` of `arrG` of the two operands as the region finds them. -/
theorem flushed_eq (c : Dev nD) (t : Fin cfg0.N) :
    (dats m 0 c).flushed 2 t
      = ((cfg0.win 2).blk t).view.read (Elt Ideal) (arrG (V m c main_v13) (V m c main_v14)) := by
  show (cfg0.win 2).cut (grid0.coords t) ((dats m 0 c).after 2 t) = _
  rw [after0_2]
  unfold outsAt0
  rw [out_eq_chain]
  obtain ⟨-, -, -, -, -, -, e0, e1, e2⟩ := idx_facts t
  funext j
  show chain (iblk m c 0 t) (iblk m c 1 t) j
    = arrG (V m c main_v13) (V m c main_v14) (((cfg0.win 2).blk t).view.emb j)
  refine block_eq (iblk m c 0 t) (iblk m c 1 t) (V m c main_v13) (V m c main_v14) t.val j
    (((cfg0.win 2).blk t).view.emb j) ?_ ?_ ?_ (fun b r c' s hs => iblk0_apply m c t b r c' s hs)
    (fun b a d s hs => iblk1_apply m c t b a d s hs)
  · show win0_2.index t (0 : Fin 3) * 4 + 1 * (j 0).val = t.val * 4 + (j 0).val; omega
  · show win0_2.index t (1 : Fin 3) * 512 + 1 * (j 1).val = (j 1).val; omega
  · show win0_2.index t (2 : Fin 3) * 512 + 1 * (j 2).val = (j 2).val; omega

/-- An index of the result is in point `t`'s block iff each coordinate is in the block's range on its axis. -/
theorem mem_blk (t : Fin cfg0.N) (i : S128x512x512.Idx) :
    i ∈ ((cfg0.win 2).blk t).view.set ↔ ∀ a : Fin 3, win0_2.index t a * S4x512x512.size a ≤ (i a).val
      ∧ (i a).val < win0_2.index t a * S4x512x512.size a + S4x512x512.size a := by
  show i ∈ ((View.whole main_v15).slice (win0_2.rect t)).set ↔ _
  rw [View.set_slice_whole, Rect.mem_set_unit]
  exact Iff.rfl

/-- Every index of the result lies in the block of the point its sample's quotient by four names. -/
theorem cover (i : S128x512x512.Idx) :
    ∃ t : Fin cfg0.N, (cfg0.win 2).flush t = true ∧ i ∈ ((cfg0.win 2).blk t).view.set := by
  have hN : cfg0.N = 32 := N_0
  have hi0 : (i 0).val < 128 := (i 0).isLt
  have hi1 : (i 1).val < 512 := (i 1).isLt
  have hi2 : (i 2).val < 512 := (i 2).isLt
  let t : Fin cfg0.N := ⟨(i 0).val / 4, by rw [hN]; omega⟩
  obtain ⟨-, -, -, -, -, -, e0, e1, e2⟩ := idx_facts t
  have ht : t.val = (i 0).val / 4 := rfl
  refine ⟨t, flush0_2 t, ?_⟩
  rw [mem_blk]
  intro a
  match a with
  | ⟨0, _⟩ => show win0_2.index t (0 : Fin 3) * 4 ≤ (i 0).val ∧ (i 0).val < win0_2.index t (0 : Fin 3) * 4 + 4; omega
  | ⟨1, _⟩ => show win0_2.index t (1 : Fin 3) * 512 ≤ (i 1).val ∧ (i 1).val < win0_2.index t (1 : Fin 3) * 512 + 512; omega
  | ⟨2, _⟩ => show win0_2.index t (2 : Fin 3) * 512 ≤ (i 2).val ∧ (i 2).val < win0_2.index t (2 : Fin 3) * 512 + 512; omega

/-- The result array after the region: `arrG` of the two operands as the region finds them. -/
theorem final (c : Dev nD) : (dats m 0 c).arrAt 2 cfg0.N = arrG (V m c main_v13) (V m c main_v14) :=
  (dats m 0 c).arrAt_eq_of_cover 2 (arrG (V m c main_v13) (V m c main_v14)) (fun t _ => flushed_eq m c t) cover

end Cert.KernelIdeal.Arr

end
-- ==== Proof.KernelRun.lean ====
/-
  The idealized kernel's run, read. Before the region the host computes the per-sample kernels by the small
  network (`netKernels`: a dense layer with tanh, a second dense layer, a column of ones appended, re-laid as
  [128,3,3]) and drops the images' unit channel axis; after it, it puts the channel axis back. So the first result
  is the specification's `convAll` of the network's kernels and the image argument; the second result is the zero
  vector; the arguments end unchanged.
-/
import proofs.«165163_j23622320128141_1_alg».proof.Proof.KernelArray

set_option maxRecDepth 16384

noncomputable section

namespace Cert.KernelIdeal.Arr

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Body Cert.ConvSpec

/-- The per-sample 3x3 kernels as the host computes them from the six parameter arrays: the shared base kernel
    broadcast and joined to the context, a dense layer with tanh, a dense layer, a column of ones appended (the
    ninth entry), re-laid as [128,3,3]. Stated for any float values; nothing below looks inside it. -/
def netKernels {F : FTy → Type} [FloatOps F] (a1 : (⟨S128x64, .f32⟩ : BufTy).Contents (Elt F)) (a2 : (⟨S8, .f32⟩ : BufTy).Contents (Elt F))
    (a3 : (⟨S72x128, .f32⟩ : BufTy).Contents (Elt F)) (a4 : (⟨S128, .f32⟩ : BufTy).Contents (Elt F))
    (a5 : (⟨S128x8, .f32⟩ : BufTy).Contents (Elt F)) (a6 : (⟨S8, .f32⟩ : BufTy).Contents (Elt F)) :
    (⟨S128x3x3, .f32⟩ : BufTy).Contents (Elt F) :=
  shapeCast _ (concatenate S128x9 1 [⟨S128x8, (addf (Host.dotGeneral dot_S128x128_S128x8_S128x8_1_0_0_1_n_n none (Host.tanh (addf (Host.dotGeneral dot_S128x72_S72x128_S128x128_1_0_0_1_n_n none (concatenate S128x72 1 [⟨S128x8, (broadcastInDim S128x8 ![1] bcast_S8_S128x8_1 a2)⟩, ⟨S128x64, a1⟩] concatenates_S128x8_S128x64_S128x72_d1) a3) (broadcastInDim S128x128 ![0, 1] bcast_S1x128_S128x128_0_1 (broadcastInDim S1x128 ![1] bcast_S128_S1x128_1 a4)))) a5) (broadcastInDim S128x8 ![0, 1] bcast_S1x8_S128x8_0_1 (broadcastInDim S1x8 ![1] bcast_S8_S1x8_1 a6)))⟩, ⟨S128x1, (broadcastInDim S128x1 ![] bcast_S_S128x1 (constant S_ .f32 0x3F800000#32))⟩] concatenates_S128x8_S128x1_S128x9_d1) shapeCasts_S128x9_S128x3x3

variable (m : (ℓ : Loc nD τ sig) → Buf (Elt Ideal) ℓ) (ρ : Dev nD → PrngReg)

/-- The kernels operand as the region finds it: the network's kernels of the parameter arguments. -/
theorem kernels_operand (c : Dev nD) :
    (V m c main_v13 : S128x3x3.Idx → EReal)
      = netKernels (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) := by
  show StableHlo.after hostOps0 (fun b => m (c, b)) (Proc.devRef .tc main_v13) = _
  after_results
  rfl

/-- The images operand as the region finds it: the image argument with its unit channel axis dropped. -/
theorem images_operand (c : Dev nD) :
    (V m c main_v14 : S128x512x512.Idx → EReal)
      = shapeCast S128x512x512 (m ((c : Thread nD τ).loc main_arg0)) shapeCasts_S128x1x512x512_S128x512x512 := by
  show StableHlo.after hostOps0 (fun b => m (c, b)) (Proc.devRef .tc main_v14) = _
  after_results
  rfl

/-- Dropping the unit channel axis: (s, r, c) reads (s, 0, r, c). -/
theorem drop_channel (x : S128x1x512x512.Idx → EReal) (s : Fin 128) (r c : Fin 512) :
    shapeCast S128x512x512 x shapeCasts_S128x1x512x512_S128x512x512 (ix3 s r c) = x (ix4 s 0 r c) :=
  shapeCast_apply x _ (ix3 s r c) (ix4 s 0 r c) (by
    rewrite [Shape.rowMajor_val_four, Shape.rowMajor_val_three]
    show ((s.val * 1 + 0) * 512 + r.val) * 512 + c.val = (s.val * 512 + r.val) * 512 + c.val
    omega)

/-- Putting the channel axis back on the region's result gives the specification: the whole first result. -/
theorem restore_channel (ck : S128x3x3.Idx → EReal) (x : S128x1x512x512.Idx → EReal) :
    broadcastInDim S128x1x512x512 ![0, 2, 3] bcast_S128x512x512_S128x1x512x512_0_2_3
        (arrG ck (shapeCast S128x512x512 x shapeCasts_S128x1x512x512_S128x512x512))
      = convAll ck x := by
  funext y
  obtain ⟨s, u, r, c, rfl⟩ : ∃ (s : Fin 128) (u : Fin 1) (r c : Fin 512), y = ix4 s u r c :=
    ⟨y 0, y 1, y 2, y 3, eq_ix4 y⟩
  obtain rfl : u = 0 := Subsingleton.elim _ _
  refine (broadcastInDim_apply _ bcast_S128x512x512_S128x1x512x512_0_2_3 _ (ix4 s 0 r c) (ix3 s r c) (fun a => ?_)).trans ?_
  · match a with
    | ⟨0, _⟩ => show s.val = if (128 : Nat) = 1 then 0 else s.val; rw [if_neg (by decide)]
    | ⟨1, _⟩ => show r.val = if (512 : Nat) = 1 then 0 else r.val; rw [if_neg (by decide)]
    | ⟨2, _⟩ => show c.val = if (512 : Nat) = 1 then 0 else c.val; rw [if_neg (by decide)]
  · show conv9 (fun i j => ck (ix3 s i j)) (fun r c => shapeCast S128x512x512 x _ (ix3 s r c)) r c
      = conv9 (fun i j => ck (ix3 s i j)) (fun r c => x (ix4 s 0 r c)) r c
    simp only [drop_channel]

/-- The first result after the host's last lines. -/
theorem tail_first (c : Dev nD) :
    Pipeline.afterTail₀ cfgs (dats m) 0 (V0 m) [hostOps1] c main_v16
      = convAll (netKernels (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)))
        (m ((c : Thread nD τ).loc main_arg0)) := by
  unfold Pipeline.afterTail₀
  show StableHlo.after hostOps1 _ (Proc.devRef .tc main_v16) = _
  after_results
  refine (congrArg (broadcastInDim S128x1x512x512 ![0, 2, 3] bcast_S128x512x512_S128x1x512x512_0_2_3)
    ((Pipeline.withArrays_arr spec0 launch0.win.arr_inj c (V0 m c) (fun w => (dats m 0 c).arrAt w cfg0.N) 2).trans (final m c))).trans ?_
  rw [kernels_operand, images_operand]
  exact restore_channel _ _

/-- The second result after the host's last lines: the zero vector. -/
theorem tail_second (c : Dev nD) :
    Pipeline.afterTail₀ cfgs (dats m) 0 (V0 m) [hostOps1] c main_v17
      = broadcastInDim S128 ![] bcast_S_S128 (constant (F := Ideal) S_ .f32 0x00000000#32) := by
  unfold Pipeline.afterTail₀
  show StableHlo.after hostOps1 _ (Proc.devRef .tc main_v17) = _
  after_results

/-- The run, read: the first result at the specification of the network's kernels and the image argument, the
    second at the zero vector, the seven arguments unchanged. -/
theorem run : θ_run defs (onTc (τ := τ) (main (F := Ideal))) ⟨m, fun _ => 0, ρ⟩ fun r => ∀ c : Dev nD,
      r.2.mem ((c.tc : Thread nD τ).loc main_v16)
        = convAll (netKernels (m ((c : Thread nD τ).loc main_arg1)) (m ((c : Thread nD τ).loc main_arg2)) (m ((c : Thread nD τ).loc main_arg3))
            (m ((c : Thread nD τ).loc main_arg4)) (m ((c : Thread nD τ).loc main_arg5)) (m ((c : Thread nD τ).loc main_arg6)))
          (m ((c : Thread nD τ).loc main_arg0))
      ∧ r.2.mem ((c.tc : Thread nD τ).loc main_v17) = broadcastInDim S128 ![] bcast_S_S128 (constant (F := Ideal) S_ .f32 0x00000000#32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v16 (Pipeline.mem_restRefs_of main_v16 (by decide) (by decide))).trans (tail_first m c),
      ((h c).2 main_v17 (Pipeline.mem_restRefs_of main_v17 (by decide) (by decide))).trans (tail_second m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.Arr

end
-- ==== Proof.LibPad.lean ====
/-
  A `stablehlo.pad` without interior padding, read at an index: inside the operand's image it is the operand at
  the index moved back by the low padding; at an index below the low padding on some axis it is the padding value.
-/
import Idealize.ShloMosaic.PureOps.ShapeOps
import Idealize.ShloMosaic.Lib.ValueIdx

namespace Idealize.ShloMosaic

variable {s t u : Shape} {α : Type}

/-- A pad with no interior padding, at an index `j` every coordinate of which is the low padding plus a coordinate
    of the operand index `k`: the operand at `k`. -/
theorem pad_apply_in (lo hi interior : Fin s.rank → Nat) (x : s.Idx → α) (v : u.Idx → α)
    (h : s.Pads lo hi interior t) (hu : 0 < u.numel) (hint : ∀ a, interior a = 0) (j : t.Idx) (k : s.Idx)
    (hk : ∀ a : Fin s.rank, (j (a.cast h.1)).val = lo a + (k a).val) :
    pad t lo hi interior x v h hu j = x k := by
  unfold pad
  have hin : ∀ a : Fin s.rank, lo a ≤ (j (a.cast h.1)).val ∧ ((j (a.cast h.1)).val - lo a) % (interior a + 1) = 0
      ∧ ((j (a.cast h.1)).val - lo a) / (interior a + 1) < s.size a := fun a => by
    have := (k a).isLt
    rw [hk a, hint a]
    refine ⟨by omega, by simp [Nat.mod_one], ?_⟩
    simp only [Nat.zero_add, Nat.div_one]
    omega
  rw [dif_pos hin]
  refine congrArg x (funext fun a => Fin.ext ?_)
  show ((j (a.cast h.1)).val - lo a) / (interior a + 1) = (k a).val
  rw [hk a, hint a]
  simp

/-- A pad at an index that lies below the low padding on some axis: the padding value. -/
theorem pad_apply_low (lo hi interior : Fin s.rank → Nat) (x : s.Idx → α) (v : u.Idx → α)
    (h : s.Pads lo hi interior t) (hu : 0 < u.numel) (j : t.Idx) (a : Fin s.rank)
    (ha : (j (a.cast h.1)).val < lo a) :
    pad t lo hi interior x v h hu j = v (Shape.Idx.first hu) := by
  unfold pad
  rw [dif_neg]
  intro hin
  have := (hin a).1
  omega

end Idealize.ShloMosaic
-- ==== Proof.RefValue.lean ====
/-
  The reference, index by index at the extended reals. It pads the images on the host (two rows above, two columns
  on the left, the padding value the integer zero converted to a float), and for each of the nine taps slices the
  kernel entry of every sample out of the [128,3,3] kernels, broadcasts it over the images, multiplies by a shifted
  window of the padded images and adds the product to the running sum, which starts at zero. Read at
  (sample s, channel 0, row r, column c) every stage depends on one element of its operand, so the result there
  is the nine taps of sample `s` added in order onto zero: the specification's `convAll` of the kernels the small
  network produced (never opened here) and of the image argument.
-/
import proofs.«165163_j23622320128141_1_alg».proof.Proof.Gen.ReferenceIdeal.Read
import proofs.«165163_j23622320128141_1_alg».proof.Proof.ConvSpec
import proofs.«165163_j23622320128141_1_alg».proof.Proof.LibPad

noncomputable section

namespace Cert.ReferenceIdeal.RefValue

open Idealize.ShloMosaic Idealize.ShloMosaic.ValueIdx Cert.ReferenceIdeal Cert.ReferenceIdeal.Gen Cert.ReferenceIdeal.Read Cert.ConvSpec

/-- Sample `s`'s 3x3 kernel, out of the batch of kernels. -/
def kern (ck : S128x3x3.Idx → EReal) (s : Fin 128) : Fin 3 → Fin 3 → EReal := fun i j => ck (ix3 s i j)
/-- Sample `s`'s image: its one channel. -/
def chan (x0 : (⟨S128x1x512x512, .f32⟩ : BufTy).Contents (Elt Ideal)) (s : Fin 128) : Fin 512 → Fin 512 → EReal := fun r c => x0 (ix4 s 0 r c)

/-- The padding value — the integer zero converted — is the real number zero. -/
theorem pad_value (y : S_.Idx) : val_main_call0_v0 (F := Ideal) y = 0 := by
  show (((0#32 : BitVec 32).toInt : ℝ) : EReal) = 0
  simp

/-- The padded images at an index with sample `s`, row `R` and column `C`: the zero-padded image of sample `s`. -/
theorem padded_ref (x0 : (⟨S128x1x512x512, .f32⟩ : BufTy).Contents (Elt Ideal)) (s : Fin 128) (R C : Fin 514) (y : S128x1x514x514.Idx)
    (h0 : (y 0).val = s.val) (h2 : (y 2).val = R.val) (h3 : (y 3).val = C.val) :
    val_main_v14 (F := Ideal) x0 y = padAt (chan x0 s) R C := by
  have h1 : (y 1).val = 0 := by have : (y 1).val < 1 := (y 1).isLt; omega
  unfold val_main_v14 padAt
  by_cases h : 2 ≤ R.val ∧ 2 ≤ C.val
  · have hR : R.val - 2 < 512 := by have := R.isLt; omega
    have hC : C.val - 2 < 512 := by have := C.isLt; omega
    rw [dif_pos h]
    refine pad_apply_in ![0, 0, 2, 2] ![0, 0, 0, 0] ![0, 0, 0, 0] x0 _ _ h_S_
      (fun a => match a with | ⟨0, _⟩ => rfl | ⟨1, _⟩ => rfl | ⟨2, _⟩ => rfl | ⟨3, _⟩ => rfl) y
      (ix4 s 0 ⟨R.val - 2, hR⟩ ⟨C.val - 2, hC⟩) (fun a => ?_)
    match a with
    | ⟨0, _⟩ => show (y 0).val = 0 + s.val; omega
    | ⟨1, _⟩ => show (y 1).val = 0 + 0; omega
    | ⟨2, _⟩ => show (y 2).val = 2 + (R.val - 2); omega
    | ⟨3, _⟩ => show (y 3).val = 2 + (C.val - 2); omega
  · rw [dif_neg h]
    by_cases hR : 2 ≤ R.val
    · have hC : C.val < 2 := by omega
      refine (pad_apply_low _ _ _ x0 _ _ h_S_ y (3 : Fin 4) (by show (y 3).val < 2; omega)).trans (pad_value _)
    · refine (pad_apply_low _ _ _ x0 _ _ h_S_ y (2 : Fin 4) (by show (y 2).val < 2; omega)).trans (pad_value _)

/-- The running sum starts at zero. -/
theorem start_zero (y : S128x1x512x512.Idx) : val_main_v15 (F := Ideal) y = 0 := by
  rw [val_main_v15_apply, val_main_cst_0_apply]
  exact Ideal.ofBits_zero_f32

/-- Tap (0, 0): its coefficient, broadcast over the image, is at (s, 0, r, c) the kernel entry (s, 0, 0). -/
theorem coef00 (x1 : (⟨S128x64, .f32⟩ : BufTy).Contents (Elt Ideal)) (x2 : (⟨S8, .f32⟩ : BufTy).Contents (Elt Ideal)) (x3 : (⟨S72x128, .f32⟩ : BufTy).Contents (Elt Ideal)) (x4 : (⟨S128, .f32⟩ : BufTy).Contents (Elt Ideal)) (x5 : (⟨S128x8, .f32⟩ : BufTy).Contents (Elt Ideal)) (x6 : (⟨S8, .f32⟩ : BufTy).Contents (Elt Ideal)) (s : Fin 128) (r c : Fin 512) :
    val_main_v20 (F := Ideal) x1 x2 x3 x4 x5 x6 (ix4 s 0 r c) = val_main_v13 (F := Ideal) x1 x2 x3 x4 x5 x6 (ix3 s 0 0) := by
  rw [val_main_v20_apply, val_main_v18_apply, val_main_v17_apply, val_main_v16_apply]
  refine congrArg _ (funext fun a => Fin.ext ?_)
  match a with
  | ⟨0, _⟩ => show s.val / 1 = s.val; omega
  | ⟨1, _⟩ => rfl
  | ⟨2, _⟩ => rfl

/-- Tap (0, 0): its window of the padded images is at (s, 0, r, c) the padded image of sample `s` at (r + 0, c + 0). -/
theorem win00 (x0 : (⟨S128x1x512x512, .f32⟩ : BufTy).Contents (Elt Ideal)) (s : Fin 128) (r c : Fin 512) :
    val_main_v19 (F := Ideal) x0 (ix4 s 0 r c) = padAt (chan x0 s) (sh r 0) (sh c 0) := by
  rw [val_main_v19_apply]
  exact padded_ref x0 s (sh r 0) (sh c 0) _ rfl (by show r.val = r.val + 0; omega) (by show c.val = c.val + 0; omega)

/-- Tap (0, 0) added: the running sum at (s, 0, r, c) grows by the specification's tap (0, 0) of sample `s`. -/
theorem add00 (x0 : (⟨S128x1x512x512, .f32⟩ : BufTy).Contents (Elt Ideal)) (x1 : (⟨S128x64, .f32⟩ : BufTy).Contents (Elt Ideal)) (x2 : (⟨S8, .f32⟩ : BufTy).Contents (Elt Ideal)) (x3 : (⟨S72x128, .f32⟩ : BufTy).Contents (Elt Ideal)) (x4 : (⟨S128, .f32⟩ : BufTy).Contents (Elt Ideal)) (x5 : (⟨S128x8, .f32⟩ : BufTy).Contents (Elt Ideal)) (x6 : (⟨S8, .f32⟩ : BufTy).Contents (Elt Ideal)) (s : Fin 128) (r c : Fin 512) :
    val_main_v22 (F := Ideal) x0 x1 x2 x3 x4 x5 x6 (ix4 s 0 r c)
      = val_main_v15 (F := Ideal) (ix4 s 0 r c) + tap (kern (val_main_v13 (F := Ideal) x1 x2 x3 x4 x5 x6) s) (chan x0 s) r c 0 0 := by
  rw [val_main_v22_apply, val_main_v21_apply, coef00, win00]
  rfl

/-- Tap (0, 1): its coefficient, broadcast over the image, is at (s, 0, r, c) the kernel entry (s, 0, 1). -/
theorem coef01 (x1 : (⟨S128x64, .f32⟩ : BufTy).Contents (Elt Ideal)) (x2 : (⟨S8, .f32⟩ : BufTy).Contents (Elt Ideal)) (x3 : (⟨S72x128, .f32⟩ : BufTy).Contents (Elt Ideal)) (x4 : (⟨S128, .f32⟩ : BufTy).Contents (Elt Ideal)) (x5 : (⟨S128x8, .f32⟩ : BufTy).Contents (Elt Ideal)) (x6 : (⟨S8, .f32⟩ : BufTy).Contents (Elt Ideal)) (s : Fin 128) (r c : Fin 512) :
    val_main_v27 (F := Ideal) x1 x2 x3 x4 x5 x6 (ix4 s 0 r c) = val_main_v13 (F := Ideal) x1 x2 x3 x4 x5 x6 (ix3 s 0 1) := by
  rw [val_main_v27_apply, val_main_v25_apply, val_main_v24_apply, val_main_v23_apply]
  refine congrArg _ (funext fun a => Fin.ext ?_)
  match a with
  | ⟨0, _⟩ => show s.val / 1 = s.val; omega
  | ⟨1, _⟩ => rfl
  | ⟨2, _⟩ => rfl

/-- Tap (0, 1): its window of the padded images is at (s, 0, r, c) the padded image of sample `s` at (r + 0, c + 1). -/
theorem win01 (x0 : (⟨S128x1x512x512, .f32⟩ : BufTy).Contents (Elt Ideal)) (s : Fin 128) (r c : Fin 512) :
    val_main_v26 (F := Ideal) x0 (ix4 s 0 r c) = padAt (chan x0 s) (sh r 0) (sh c 1) := by
  rw [val_main_v26_apply]
  exact padded_ref x0 s (sh r 0) (sh c 1) _ rfl (by show r.val = r.val + 0; omega) (by show 1 + c.val = c.val + 1; omega)

/-- Tap (0, 1) added: the running sum at (s, 0, r, c) grows by the specification's tap (0, 1) of sample `s`. -/
theorem add01 (x0 : (⟨S128x1x512x512, .f32⟩ : BufTy).Contents (Elt Ideal)) (x1 : (⟨S128x64, .f32⟩ : BufTy).Contents (Elt Ideal)) (x2 : (⟨S8, .f32⟩ : BufTy).Contents (Elt Ideal)) (x3 : (⟨S72x128, .f32⟩ : BufTy).Contents (Elt Ideal)) (x4 : (⟨S128, .f32⟩ : BufTy).Contents (Elt Ideal)) (x5 : (⟨S128x8, .f32⟩ : BufTy).Contents (Elt Ideal)) (x6 : (⟨S8, .f32⟩ : BufTy).Contents (Elt Ideal)) (s : Fin 128) (r c : Fin 512) :
    val_main_v29 (F := Ideal) x0 x1 x2 x3 x4 x5 x6 (ix4 s 0 r c)
      = val_main_v22 (F := Ideal) x0 x1 x2 x3 x4 x5 x6 (ix4 s 0 r c) + tap (kern (val_main_v13 (F := Ideal) x1 x2 x3 x4 x5 x6) s) (chan x0 s) r c 0 1 := by
  rw [val_main_v29_apply, val_main_v28_apply, coef01, win01]
  rfl

/-- Tap (0, 2): its coefficient, broadcast over the image, is at (s, 0, r, c) the kernel entry (s, 0, 2). -/
theorem coef02 (x1 : (⟨S128x64, .f32⟩ : BufTy).Contents (Elt Ideal)) (x2 : (⟨S8, .f32⟩ : BufTy).Contents (Elt Ideal)) (x3 : (⟨S72x128, .f32⟩ : BufTy).Contents (Elt Ideal)) (x4 : (⟨S128, .f32⟩ : BufTy).Contents (Elt Ideal)) (x5 : (⟨S128x8, .f32⟩ : BufTy).Contents (Elt Ideal)) (x6 : (⟨S8, .f32⟩ : BufTy).Contents (Elt Ideal)) (s : Fin 128) (r c : Fin 512) :
    val_main_v34 (F := Ideal) x1 x2 x3 x4 x5 x6 (ix4 s 0 r c) = val_main_v13 (F := Ideal) x1 x2 x3 x4 x5 x6 (ix3 s 0 2) := by
  rw [val_main_v34_apply, val_main_v32_apply, val_main_v31_apply, val_main_v30_apply]
  refine congrArg _ (funext fun a => Fin.ext ?_)
  match a with
  | ⟨0, _⟩ => show s.val / 1 = s.val; omega
  | ⟨1, _⟩ => rfl
  | ⟨2, _⟩ => rfl

/-- Tap (0, 2): its window of the padded images is at (s, 0, r, c) the padded image of sample `s` at (r + 0, c + 2). -/
theorem win02 (x0 : (⟨S128x1x512x512, .f32⟩ : BufTy).Contents (Elt Ideal)) (s : Fin 128) (r c : Fin 512) :
    val_main_v33 (F := Ideal) x0 (ix4 s 0 r c) = padAt (chan x0 s) (sh r 0) (sh c 2) := by
  rw [val_main_v33_apply]
  exact padded_ref x0 s (sh r 0) (sh c 2) _ rfl (by show r.val = r.val + 0; omega) (by show 2 + c.val = c.val + 2; omega)

/-- Tap (0, 2) added: the running sum at (s, 0, r, c) grows by the specification's tap (0, 2) of sample `s`. -/
theorem add02 (x0 : (⟨S128x1x512x512, .f32⟩ : BufTy).Contents (Elt Ideal)) (x1 : (⟨S128x64, .f32⟩ : BufTy).Contents (Elt Ideal)) (x2 : (⟨S8, .f32⟩ : BufTy).Contents (Elt Ideal)) (x3 : (⟨S72x128, .f32⟩ : BufTy).Contents (Elt Ideal)) (x4 : (⟨S128, .f32⟩ : BufTy).Contents (Elt Ideal)) (x5 : (⟨S128x8, .f32⟩ : BufTy).Contents (Elt Ideal)) (x6 : (⟨S8, .f32⟩ : BufTy).Contents (Elt Ideal)) (s : Fin 128) (r c : Fin 512) :
    val_main_v36 (F := Ideal) x0 x1 x2 x3 x4 x5 x6 (ix4 s 0 r c)
      = val_main_v29 (F := Ideal) x0 x1 x2 x3 x4 x5 x6 (ix4 s 0 r c) + tap (kern (val_main_v13 (F := Ideal) x1 x2 x3 x4 x5 x6) s) (chan x0 s) r c 0 2 := by
  rw [val_main_v36_apply, val_main_v35_apply, coef02, win02]
  rfl

/-- Tap (1, 0): its coefficient, broadcast over the image, is at (s, 0, r, c) the kernel entry (s, 1, 0). -/
theorem coef10 (x1 : (⟨S128x64, .f32⟩ : BufTy).Contents (Elt Ideal)) (x2 : (⟨S8, .f32⟩ : BufTy).Contents (Elt Ideal)) (x3 : (⟨S72x128, .f32⟩ : BufTy).Contents (Elt Ideal)) (x4 : (⟨S128, .f32⟩ : BufTy).Contents (Elt Ideal)) (x5 : (⟨S128x8, .f32⟩ : BufTy).Contents (Elt Ideal)) (x6 : (⟨S8, .f32⟩ : BufTy).Contents (Elt Ideal)) (s : Fin 128) (r c : Fin 512) :
    val_main_v41 (F := Ideal) x1 x2 x3 x4 x5 x6 (ix4 s 0 r c) = val_main_v13 (F := Ideal) x1 x2 x3 x4 x5 x6 (ix3 s 1 0) := by
  rw [val_main_v41_apply, val_main_v39_apply, val_main_v38_apply, val_main_v37_apply]
  refine congrArg _ (funext fun a => Fin.ext ?_)
  match a with
  | ⟨0, _⟩ => show s.val / 1 = s.val; omega
  | ⟨1, _⟩ => rfl
  | ⟨2, _⟩ => rfl

/-- Tap (1, 0): its window of the padded images is at (s, 0, r, c) the padded image of sample `s` at (r + 1, c + 0). -/
theorem win10 (x0 : (⟨S128x1x512x512, .f32⟩ : BufTy).Contents (Elt Ideal)) (s : Fin 128) (r c : Fin 512) :
    val_main_v40 (F := Ideal) x0 (ix4 s 0 r c) = padAt (chan x0 s) (sh r 1) (sh c 0) := by
  rw [val_main_v40_apply]
  exact padded_ref x0 s (sh r 1) (sh c 0) _ rfl (by show 1 + r.val = r.val + 1; omega) (by show c.val = c.val + 0; omega)

/-- Tap (1, 0) added: the running sum at (s, 0, r, c) grows by the specification's tap (1, 0) of sample `s`. -/
theorem add10 (x0 : (⟨S128x1x512x512, .f32⟩ : BufTy).Contents (Elt Ideal)) (x1 : (⟨S128x64, .f32⟩ : BufTy).Contents (Elt Ideal)) (x2 : (⟨S8, .f32⟩ : BufTy).Contents (Elt Ideal)) (x3 : (⟨S72x128, .f32⟩ : BufTy).Contents (Elt Ideal)) (x4 : (⟨S128, .f32⟩ : BufTy).Contents (Elt Ideal)) (x5 : (⟨S128x8, .f32⟩ : BufTy).Contents (Elt Ideal)) (x6 : (⟨S8, .f32⟩ : BufTy).Contents (Elt Ideal)) (s : Fin 128) (r c : Fin 512) :
    val_main_v43 (F := Ideal) x0 x1 x2 x3 x4 x5 x6 (ix4 s 0 r c)
      = val_main_v36 (F := Ideal) x0 x1 x2 x3 x4 x5 x6 (ix4 s 0 r c) + tap (kern (val_main_v13 (F := Ideal) x1 x2 x3 x4 x5 x6) s) (chan x0 s) r c 1 0 := by
  rw [val_main_v43_apply, val_main_v42_apply, coef10, win10]
  rfl

/-- Tap (1, 1): its coefficient, broadcast over the image, is at (s, 0, r, c) the kernel entry (s, 1, 1). -/
theorem coef11 (x1 : (⟨S128x64, .f32⟩ : BufTy).Contents (Elt Ideal)) (x2 : (⟨S8, .f32⟩ : BufTy).Contents (Elt Ideal)) (x3 : (⟨S72x128, .f32⟩ : BufTy).Contents (Elt Ideal)) (x4 : (⟨S128, .f32⟩ : BufTy).Contents (Elt Ideal)) (x5 : (⟨S128x8, .f32⟩ : BufTy).Contents (Elt Ideal)) (x6 : (⟨S8, .f32⟩ : BufTy).Contents (Elt Ideal)) (s : Fin 128) (r c : Fin 512) :
    val_main_v48 (F := Ideal) x1 x2 x3 x4 x5 x6 (ix4 s 0 r c) = val_main_v13 (F := Ideal) x1 x2 x3 x4 x5 x6 (ix3 s 1 1) := by
  rw [val_main_v48_apply, val_main_v46_apply, val_main_v45_apply, val_main_v44_apply]
  refine congrArg _ (funext fun a => Fin.ext ?_)
  match a with
  | ⟨0, _⟩ => show s.val / 1 = s.val; omega
  | ⟨1, _⟩ => rfl
  | ⟨2, _⟩ => rfl

/-- Tap (1, 1): its window of the padded images is at (s, 0, r, c) the padded image of sample `s` at (r + 1, c + 1). -/
theorem win11 (x0 : (⟨S128x1x512x512, .f32⟩ : BufTy).Contents (Elt Ideal)) (s : Fin 128) (r c : Fin 512) :
    val_main_v47 (F := Ideal) x0 (ix4 s 0 r c) = padAt (chan x0 s) (sh r 1) (sh c 1) := by
  rw [val_main_v47_apply]
  exact padded_ref x0 s (sh r 1) (sh c 1) _ rfl (by show 1 + r.val = r.val + 1; omega) (by show 1 + c.val = c.val + 1; omega)

/-- Tap (1, 1) added: the running sum at (s, 0, r, c) grows by the specification's tap (1, 1) of sample `s`. -/
theorem add11 (x0 : (⟨S128x1x512x512, .f32⟩ : BufTy).Contents (Elt Ideal)) (x1 : (⟨S128x64, .f32⟩ : BufTy).Contents (Elt Ideal)) (x2 : (⟨S8, .f32⟩ : BufTy).Contents (Elt Ideal)) (x3 : (⟨S72x128, .f32⟩ : BufTy).Contents (Elt Ideal)) (x4 : (⟨S128, .f32⟩ : BufTy).Contents (Elt Ideal)) (x5 : (⟨S128x8, .f32⟩ : BufTy).Contents (Elt Ideal)) (x6 : (⟨S8, .f32⟩ : BufTy).Contents (Elt Ideal)) (s : Fin 128) (r c : Fin 512) :
    val_main_v50 (F := Ideal) x0 x1 x2 x3 x4 x5 x6 (ix4 s 0 r c)
      = val_main_v43 (F := Ideal) x0 x1 x2 x3 x4 x5 x6 (ix4 s 0 r c) + tap (kern (val_main_v13 (F := Ideal) x1 x2 x3 x4 x5 x6) s) (chan x0 s) r c 1 1 := by
  rw [val_main_v50_apply, val_main_v49_apply, coef11, win11]
  rfl

/-- Tap (1, 2): its coefficient, broadcast over the image, is at (s, 0, r, c) the kernel entry (s, 1, 2). -/
theorem coef12 (x1 : (⟨S128x64, .f32⟩ : BufTy).Contents (Elt Ideal)) (x2 : (⟨S8, .f32⟩ : BufTy).Contents (Elt Ideal)) (x3 : (⟨S72x128, .f32⟩ : BufTy).Contents (Elt Ideal)) (x4 : (⟨S128, .f32⟩ : BufTy).Contents (Elt Ideal)) (x5 : (⟨S128x8, .f32⟩ : BufTy).Contents (Elt Ideal)) (x6 : (⟨S8, .f32⟩ : BufTy).Contents (Elt Ideal)) (s : Fin 128) (r c : Fin 512) :
    val_main_v55 (F := Ideal) x1 x2 x3 x4 x5 x6 (ix4 s 0 r c) = val_main_v13 (F := Ideal) x1 x2 x3 x4 x5 x6 (ix3 s 1 2) := by
  rw [val_main_v55_apply, val_main_v53_apply, val_main_v52_apply, val_main_v51_apply]
  refine congrArg _ (funext fun a => Fin.ext ?_)
  match a with
  | ⟨0, _⟩ => show s.val / 1 = s.val; omega
  | ⟨1, _⟩ => rfl
  | ⟨2, _⟩ => rfl

/-- Tap (1, 2): its window of the padded images is at (s, 0, r, c) the padded image of sample `s` at (r + 1, c + 2). -/
theorem win12 (x0 : (⟨S128x1x512x512, .f32⟩ : BufTy).Contents (Elt Ideal)) (s : Fin 128) (r c : Fin 512) :
    val_main_v54 (F := Ideal) x0 (ix4 s 0 r c) = padAt (chan x0 s) (sh r 1) (sh c 2) := by
  rw [val_main_v54_apply]
  exact padded_ref x0 s (sh r 1) (sh c 2) _ rfl (by show 1 + r.val = r.val + 1; omega) (by show 2 + c.val = c.val + 2; omega)

/-- Tap (1, 2) added: the running sum at (s, 0, r, c) grows by the specification's tap (1, 2) of sample `s`. -/
theorem add12 (x0 : (⟨S128x1x512x512, .f32⟩ : BufTy).Contents (Elt Ideal)) (x1 : (⟨S128x64, .f32⟩ : BufTy).Contents (Elt Ideal)) (x2 : (⟨S8, .f32⟩ : BufTy).Contents (Elt Ideal)) (x3 : (⟨S72x128, .f32⟩ : BufTy).Contents (Elt Ideal)) (x4 : (⟨S128, .f32⟩ : BufTy).Contents (Elt Ideal)) (x5 : (⟨S128x8, .f32⟩ : BufTy).Contents (Elt Ideal)) (x6 : (⟨S8, .f32⟩ : BufTy).Contents (Elt Ideal)) (s : Fin 128) (r c : Fin 512) :
    val_main_v57 (F := Ideal) x0 x1 x2 x3 x4 x5 x6 (ix4 s 0 r c)
      = val_main_v50 (F := Ideal) x0 x1 x2 x3 x4 x5 x6 (ix4 s 0 r c) + tap (kern (val_main_v13 (F := Ideal) x1 x2 x3 x4 x5 x6) s) (chan x0 s) r c 1 2 := by
  rw [val_main_v57_apply, val_main_v56_apply, coef12, win12]
  rfl

/-- Tap (2, 0): its coefficient, broadcast over the image, is at (s, 0, r, c) the kernel entry (s, 2, 0). -/
theorem coef20 (x1 : (⟨S128x64, .f32⟩ : BufTy).Contents (Elt Ideal)) (x2 : (⟨S8, .f32⟩ : BufTy).Contents (Elt Ideal)) (x3 : (⟨S72x128, .f32⟩ : BufTy).Contents (Elt Ideal)) (x4 : (⟨S128, .f32⟩ : BufTy).Contents (Elt Ideal)) (x5 : (⟨S128x8, .f32⟩ : BufTy).Contents (Elt Ideal)) (x6 : (⟨S8, .f32⟩ : BufTy).Contents (Elt Ideal)) (s : Fin 128) (r c : Fin 512) :
    val_main_v62 (F := Ideal) x1 x2 x3 x4 x5 x6 (ix4 s 0 r c) = val_main_v13 (F := Ideal) x1 x2 x3 x4 x5 x6 (ix3 s 2 0) := by
  rw [val_main_v62_apply, val_main_v60_apply, val_main_v59_apply, val_main_v58_apply]
  refine congrArg _ (funext fun a => Fin.ext ?_)
  match a with
  | ⟨0, _⟩ => show s.val / 1 = s.val; omega
  | ⟨1, _⟩ => rfl
  | ⟨2, _⟩ => rfl

/-- Tap (2, 0): its window of the padded images is at (s, 0, r, c) the padded image of sample `s` at (r + 2, c + 0). -/
theorem win20 (x0 : (⟨S128x1x512x512, .f32⟩ : BufTy).Contents (Elt Ideal)) (s : Fin 128) (r c : Fin 512) :
    val_main_v61 (F := Ideal) x0 (ix4 s 0 r c) = padAt (chan x0 s) (sh r 2) (sh c 0) := by
  rw [val_main_v61_apply]
  exact padded_ref x0 s (sh r 2) (sh c 0) _ rfl (by show 2 + r.val = r.val + 2; omega) (by show c.val = c.val + 0; omega)

/-- Tap (2, 0) added: the running sum at (s, 0, r, c) grows by the specification's tap (2, 0) of sample `s`. -/
theorem add20 (x0 : (⟨S128x1x512x512, .f32⟩ : BufTy).Contents (Elt Ideal)) (x1 : (⟨S128x64, .f32⟩ : BufTy).Contents (Elt Ideal)) (x2 : (⟨S8, .f32⟩ : BufTy).Contents (Elt Ideal)) (x3 : (⟨S72x128, .f32⟩ : BufTy).Contents (Elt Ideal)) (x4 : (⟨S128, .f32⟩ : BufTy).Contents (Elt Ideal)) (x5 : (⟨S128x8, .f32⟩ : BufTy).Contents (Elt Ideal)) (x6 : (⟨S8, .f32⟩ : BufTy).Contents (Elt Ideal)) (s : Fin 128) (r c : Fin 512) :
    val_main_v64 (F := Ideal) x0 x1 x2 x3 x4 x5 x6 (ix4 s 0 r c)
      = val_main_v57 (F := Ideal) x0 x1 x2 x3 x4 x5 x6 (ix4 s 0 r c) + tap (kern (val_main_v13 (F := Ideal) x1 x2 x3 x4 x5 x6) s) (chan x0 s) r c 2 0 := by
  rw [val_main_v64_apply, val_main_v63_apply, coef20, win20]
  rfl

/-- Tap (2, 1): its coefficient, broadcast over the image, is at (s, 0, r, c) the kernel entry (s, 2, 1). -/
theorem coef21 (x1 : (⟨S128x64, .f32⟩ : BufTy).Contents (Elt Ideal)) (x2 : (⟨S8, .f32⟩ : BufTy).Contents (Elt Ideal)) (x3 : (⟨S72x128, .f32⟩ : BufTy).Contents (Elt Ideal)) (x4 : (⟨S128, .f32⟩ : BufTy).Contents (Elt Ideal)) (x5 : (⟨S128x8, .f32⟩ : BufTy).Contents (Elt Ideal)) (x6 : (⟨S8, .f32⟩ : BufTy).Contents (Elt Ideal)) (s : Fin 128) (r c : Fin 512) :
    val_main_v69 (F := Ideal) x1 x2 x3 x4 x5 x6 (ix4 s 0 r c) = val_main_v13 (F := Ideal) x1 x2 x3 x4 x5 x6 (ix3 s 2 1) := by
  rw [val_main_v69_apply, val_main_v67_apply, val_main_v66_apply, val_main_v65_apply]
  refine congrArg _ (funext fun a => Fin.ext ?_)
  match a with
  | ⟨0, _⟩ => show s.val / 1 = s.val; omega
  | ⟨1, _⟩ => rfl
  | ⟨2, _⟩ => rfl

/-- Tap (2, 1): its window of the padded images is at (s, 0, r, c) the padded image of sample `s` at (r + 2, c + 1). -/
theorem win21 (x0 : (⟨S128x1x512x512, .f32⟩ : BufTy).Contents (Elt Ideal)) (s : Fin 128) (r c : Fin 512) :
    val_main_v68 (F := Ideal) x0 (ix4 s 0 r c) = padAt (chan x0 s) (sh r 2) (sh c 1) := by
  rw [val_main_v68_apply]
  exact padded_ref x0 s (sh r 2) (sh c 1) _ rfl (by show 2 + r.val = r.val + 2; omega) (by show 1 + c.val = c.val + 1; omega)

/-- Tap (2, 1) added: the running sum at (s, 0, r, c) grows by the specification's tap (2, 1) of sample `s`. -/
theorem add21 (x0 : (⟨S128x1x512x512, .f32⟩ : BufTy).Contents (Elt Ideal)) (x1 : (⟨S128x64, .f32⟩ : BufTy).Contents (Elt Ideal)) (x2 : (⟨S8, .f32⟩ : BufTy).Contents (Elt Ideal)) (x3 : (⟨S72x128, .f32⟩ : BufTy).Contents (Elt Ideal)) (x4 : (⟨S128, .f32⟩ : BufTy).Contents (Elt Ideal)) (x5 : (⟨S128x8, .f32⟩ : BufTy).Contents (Elt Ideal)) (x6 : (⟨S8, .f32⟩ : BufTy).Contents (Elt Ideal)) (s : Fin 128) (r c : Fin 512) :
    val_main_v71 (F := Ideal) x0 x1 x2 x3 x4 x5 x6 (ix4 s 0 r c)
      = val_main_v64 (F := Ideal) x0 x1 x2 x3 x4 x5 x6 (ix4 s 0 r c) + tap (kern (val_main_v13 (F := Ideal) x1 x2 x3 x4 x5 x6) s) (chan x0 s) r c 2 1 := by
  rw [val_main_v71_apply, val_main_v70_apply, coef21, win21]
  rfl

/-- Tap (2, 2): its coefficient, broadcast over the image, is at (s, 0, r, c) the kernel entry (s, 2, 2). -/
theorem coef22 (x1 : (⟨S128x64, .f32⟩ : BufTy).Contents (Elt Ideal)) (x2 : (⟨S8, .f32⟩ : BufTy).Contents (Elt Ideal)) (x3 : (⟨S72x128, .f32⟩ : BufTy).Contents (Elt Ideal)) (x4 : (⟨S128, .f32⟩ : BufTy).Contents (Elt Ideal)) (x5 : (⟨S128x8, .f32⟩ : BufTy).Contents (Elt Ideal)) (x6 : (⟨S8, .f32⟩ : BufTy).Contents (Elt Ideal)) (s : Fin 128) (r c : Fin 512) :
    val_main_v76 (F := Ideal) x1 x2 x3 x4 x5 x6 (ix4 s 0 r c) = val_main_v13 (F := Ideal) x1 x2 x3 x4 x5 x6 (ix3 s 2 2) := by
  rw [val_main_v76_apply, val_main_v74_apply, val_main_v73_apply, val_main_v72_apply]
  refine congrArg _ (funext fun a => Fin.ext ?_)
  match a with
  | ⟨0, _⟩ => show s.val / 1 = s.val; omega
  | ⟨1, _⟩ => rfl
  | ⟨2, _⟩ => rfl

/-- Tap (2, 2): its window of the padded images is at (s, 0, r, c) the padded image of sample `s` at (r + 2, c + 2). -/
theorem win22 (x0 : (⟨S128x1x512x512, .f32⟩ : BufTy).Contents (Elt Ideal)) (s : Fin 128) (r c : Fin 512) :
    val_main_v75 (F := Ideal) x0 (ix4 s 0 r c) = padAt (chan x0 s) (sh r 2) (sh c 2) := by
  rw [val_main_v75_apply]
  exact padded_ref x0 s (sh r 2) (sh c 2) _ rfl (by show 2 + r.val = r.val + 2; omega) (by show 2 + c.val = c.val + 2; omega)

/-- Tap (2, 2) added: the running sum at (s, 0, r, c) grows by the specification's tap (2, 2) of sample `s`. -/
theorem add22 (x0 : (⟨S128x1x512x512, .f32⟩ : BufTy).Contents (Elt Ideal)) (x1 : (⟨S128x64, .f32⟩ : BufTy).Contents (Elt Ideal)) (x2 : (⟨S8, .f32⟩ : BufTy).Contents (Elt Ideal)) (x3 : (⟨S72x128, .f32⟩ : BufTy).Contents (Elt Ideal)) (x4 : (⟨S128, .f32⟩ : BufTy).Contents (Elt Ideal)) (x5 : (⟨S128x8, .f32⟩ : BufTy).Contents (Elt Ideal)) (x6 : (⟨S8, .f32⟩ : BufTy).Contents (Elt Ideal)) (s : Fin 128) (r c : Fin 512) :
    val_main_v78 (F := Ideal) x0 x1 x2 x3 x4 x5 x6 (ix4 s 0 r c)
      = val_main_v71 (F := Ideal) x0 x1 x2 x3 x4 x5 x6 (ix4 s 0 r c) + tap (kern (val_main_v13 (F := Ideal) x1 x2 x3 x4 x5 x6) s) (chan x0 s) r c 2 2 := by
  rw [val_main_v78_apply, val_main_v77_apply, coef22, win22]
  rfl

/-- The reference's result at (s, 0, r, c): the nine taps of sample `s` at (r, c), added in order onto zero. -/
theorem result_apply (x0 : (⟨S128x1x512x512, .f32⟩ : BufTy).Contents (Elt Ideal)) (x1 : (⟨S128x64, .f32⟩ : BufTy).Contents (Elt Ideal)) (x2 : (⟨S8, .f32⟩ : BufTy).Contents (Elt Ideal)) (x3 : (⟨S72x128, .f32⟩ : BufTy).Contents (Elt Ideal)) (x4 : (⟨S128, .f32⟩ : BufTy).Contents (Elt Ideal)) (x5 : (⟨S128x8, .f32⟩ : BufTy).Contents (Elt Ideal)) (x6 : (⟨S8, .f32⟩ : BufTy).Contents (Elt Ideal)) (s : Fin 128) (r c : Fin 512) :
    val_main_v78 (F := Ideal) x0 x1 x2 x3 x4 x5 x6 (ix4 s 0 r c)
      = conv9 (kern (val_main_v13 (F := Ideal) x1 x2 x3 x4 x5 x6) s) (chan x0 s) r c := by
  unfold conv9
  rw [add22, add21, add20, add12, add11, add10, add02, add01, add00, start_zero]

/-- The reference's result, whole: the specification of the network's kernels and the image argument. -/
theorem result_eq (x0 : (⟨S128x1x512x512, .f32⟩ : BufTy).Contents (Elt Ideal)) (x1 : (⟨S128x64, .f32⟩ : BufTy).Contents (Elt Ideal)) (x2 : (⟨S8, .f32⟩ : BufTy).Contents (Elt Ideal)) (x3 : (⟨S72x128, .f32⟩ : BufTy).Contents (Elt Ideal)) (x4 : (⟨S128, .f32⟩ : BufTy).Contents (Elt Ideal)) (x5 : (⟨S128x8, .f32⟩ : BufTy).Contents (Elt Ideal)) (x6 : (⟨S8, .f32⟩ : BufTy).Contents (Elt Ideal)) :
    val_main_v78 (F := Ideal) x0 x1 x2 x3 x4 x5 x6 = convAll (val_main_v13 (F := Ideal) x1 x2 x3 x4 x5 x6) x0 := by
  funext y
  obtain ⟨s, u, r, c, rfl⟩ : ∃ (s : Fin 128) (u : Fin 1) (r c : Fin 512), y = ix4 s u r c :=
    ⟨y 0, y 1, y 2, y 3, eq_ix4 y⟩
  obtain rfl : u = 0 := Subsingleton.elim _ _
  rw [result_apply]
  rfl

end Cert.ReferenceIdeal.RefValue

end
-- ==== Proof.lean ====
/-
  A batched 3x3 "upper-left causal" correlation with per-sample kernels from a small network.

  Both programs first compute, on the host and by the same operations, one 3x3 kernel per sample from six parameter
  arrays (a dense layer with tanh, a second dense layer, a ninth entry fixed at one). The reference then pads every
  512x512 image with two zero rows above and two zero columns on the left and adds, for the nine taps (i, j) in
  row-major order, kernel[s, i, j] times the padded image shifted by (i, j), starting from zero. The kernel does the
  same four samples at a time: each grid point pads its block of images in registers, zeroes its output block and
  accumulates the nine taps into it through the output buffer, in the same order. So at the extended reals the two
  results are the same expression at every index — no law of arithmetic is needed beyond reading each operation at
  an index, and the finiteness of the inputs is never used. The second result is the zero vector on both sides.

  The kernel's value: BodyChain (the read-after-write chain of one grid point), BlockTaps / BlockValue (that chain
  at an index), KernelArray (the 32 blocks tile the result), KernelRun (the host lines around the region).
  The reference's value: RefValue, over the generated stage-by-stage reading of its run. ConvSpec states the
  common function. The idealized kernel is the kernel's own text read at the extended reals — nothing in it was
  rewritten — so the idealization claim is trivial.
-/
import proofs.«165163_j23622320128141_1_alg».proof.Defs
import proofs.«165163_j23622320128141_1_alg».proof.Proof.Gen.Kernel
import proofs.«165163_j23622320128141_1_alg».proof.Proof.Gen.Kernel.Skeleton
import proofs.«165163_j23622320128141_1_alg».proof.Proof.Gen.Kernel.Launch
import proofs.«165163_j23622320128141_1_alg».proof.Proof.Gen.Kernel.Points
import proofs.«165163_j23622320128141_1_alg».proof.Proof.Gen.Kernel.Frame
import proofs.«165163_j23622320128141_1_alg».proof.Proof.Gen.KernelIdeal
import proofs.«165163_j23622320128141_1_alg».proof.Proof.Gen.KernelIdeal.Skeleton
import proofs.«165163_j23622320128141_1_alg».proof.Proof.Gen.KernelIdeal.Launch
import proofs.«165163_j23622320128141_1_alg».proof.Proof.Gen.KernelIdeal.Points
import proofs.«165163_j23622320128141_1_alg».proof.Proof.Gen.KernelIdeal.Frame
import proofs.«165163_j23622320128141_1_alg».proof.Proof.Gen.ReferenceIdeal
import proofs.«165163_j23622320128141_1_alg».proof.Proof.Gen.ReferenceIdeal.Run
import proofs.«165163_j23622320128141_1_alg».proof.Proof.Gen.ReferenceIdeal.Read
import proofs.«165163_j23622320128141_1_alg».proof.Proof.Gen.Pre_finite_inputs
import proofs.«165163_j23622320128141_1_alg».proof.Proof.KernelRun
import proofs.«165163_j23622320128141_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem Cert.ConvSpec

/-- The small network is the same composition of the same host operations in both programs: the kernel program's
    per-sample kernels are the reference's, as functions of the six parameter arrays. -/
theorem net_eq (x1 : (⟨Cert.ReferenceIdeal.S128x64, .f32⟩ : BufTy).Contents (Elt Ideal)) (x2 : (⟨Cert.ReferenceIdeal.S8, .f32⟩ : BufTy).Contents (Elt Ideal))
    (x3 : (⟨Cert.ReferenceIdeal.S72x128, .f32⟩ : BufTy).Contents (Elt Ideal)) (x4 : (⟨Cert.ReferenceIdeal.S128, .f32⟩ : BufTy).Contents (Elt Ideal))
    (x5 : (⟨Cert.ReferenceIdeal.S128x8, .f32⟩ : BufTy).Contents (Elt Ideal)) (x6 : (⟨Cert.ReferenceIdeal.S8, .f32⟩ : BufTy).Contents (Elt Ideal)) :
    Cert.ReferenceIdeal.Read.val_main_v13 (F := Ideal) x1 x2 x3 x4 x5 x6
      = Cert.KernelIdeal.Arr.netKernels (F := Ideal) x1 x2 x3 x4 x5 x6 := by
  unfold Cert.ReferenceIdeal.Read.val_main_v13 Cert.ReferenceIdeal.Read.val_main_v12 Cert.ReferenceIdeal.Read.val_main_v11
    Cert.ReferenceIdeal.Read.val_main_cst Cert.ReferenceIdeal.Read.val_main_v10 Cert.ReferenceIdeal.Read.val_main_v9
    Cert.ReferenceIdeal.Read.val_main_v8 Cert.ReferenceIdeal.Read.val_main_v7 Cert.ReferenceIdeal.Read.val_main_v6
    Cert.ReferenceIdeal.Read.val_main_v5 Cert.ReferenceIdeal.Read.val_main_v4 Cert.ReferenceIdeal.Read.val_main_v3
    Cert.ReferenceIdeal.Read.val_main_v2 Cert.ReferenceIdeal.Read.val_main_v1 Cert.ReferenceIdeal.Read.val_main_v0
    Cert.KernelIdeal.Arr.netKernels
  rfl

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Nothing was rewritten between the kernel and its idealization. -/
theorem preserves : Cert.preserves_Kernel_KernelIdeal := trivial

/-- Both programs end with the first result at the specification of the network's kernels and the image argument
    and the second at the zero vector, of arguments that agree. -/
theorem algebraic : Cert.algebraic_KernelIdeal_ReferenceIdeal := by
  intro m ρ m' ρ' _ hagree
  refine ⟨fun c => convAll (Cert.KernelIdeal.Arr.netKernels (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)))
      (m ((c.tc : Thread Cert.KernelIdeal.nD Cert.KernelIdeal.τ).loc Cert.KernelIdeal.main_arg0)),
    fun c => broadcastInDim Cert.KernelIdeal.S128 ![] Cert.KernelIdeal.Gen.bcast_S_S128 (constant (F := Ideal) Cert.KernelIdeal.S_ .f32 0x00000000#32),
    Cert.KernelIdeal.Arr.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v78_eq m' c, Cert.ReferenceIdeal.RefValue.result_eq, net_eq,
      (hagree c).1, (hagree c).2.1, (hagree c).2.2.1, (hagree c).2.2.2.1, (hagree c).2.2.2.2.1,
      (hagree c).2.2.2.2.2.1, (hagree c).2.2.2.2.2.2]
  · rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
